-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S_ : Shape := ⟨0, ![]⟩
abbrev S8x1x16x64 : Shape := ⟨4, ![8, 1, 16, 64]⟩
abbrev S4x8x2048x16x64 : Shape := ⟨5, ![4, 8, 2048, 16, 64]⟩

class Facts : Prop where
  bcast_S_S8x1x16x64 : S_.BroadcastsInDim S8x1x16x64 (![] : Fin 0 → Fin S8x1x16x64.rank)
  reducesTo_S8x1x16x64_S_d0_1_2_3 : S8x1x16x64.ReducesTo [0, 1, 2, 3] S_
  h_S_ : 0 < S_.numel
  bcast_S_S4x8x2048x16x64 : S_.BroadcastsInDim S4x8x2048x16x64 (![] : Fin 0 → Fin S4x8x2048x16x64.rank)
  reducesTo_S4x8x2048x16x64_S_d0_1_2_3_4 : S4x8x2048x16x64.ReducesTo [0, 1, 2, 3, 4] S_
  reducesTo_S_S_d : S_.ReducesTo [] S_

variable [Facts]

def fn_part1 {F : FTy → Type} [FloatOps F] (main_arg0 : IVec S_ 32) (main_v13 : IVec S_ 1) (main_v16 : IVec S4x8x2048x16x64 1) : IVec S_ 1 :=
  let main_c_5 : IVec S_ 1 := constantI S_ 1 1#1
  let main_v17 : IVec S_ 1 := (fun x v => Host.reduce IntOp.andi x v reducesTo_S4x8x2048x16x64_S_d0_1_2_3_4 h_S_) main_v16 main_c_5
  let main_v18 : IVec S_ 1 := andi main_v13 main_v17
  let main_c_6 : IVec S_ 32 := constantI S_ 32 1#32
  let main_v19 : IVec S_ 1 := cmpi .sge main_arg0 main_c_6
  let main_c_7 : IVec S_ 32 := constantI S_ 32 1#32
  let main_v20 : IVec S_ 1 := cmpi .sle main_arg0 main_c_7
  let main_v21 : IVec S_ 1 := andi main_v19 main_v20
  let main_c_8 : IVec S_ 1 := constantI S_ 1 1#1
  let main_v22 : IVec S_ 1 := (fun x v => Host.reduce IntOp.andi x v reducesTo_S_S_d h_S_) main_v21 main_c_8
  let main_v23 : IVec S_ 1 := andi main_v18 main_v22
  main_v23

def fn {F : FTy → Type} [FloatOps F] (main_arg0 : IVec S_ 32) (main_arg1 : FVec F S8x1x16x64 .f32) (main_arg2 : FVec F S8x1x16x64 .f32) (main_arg3 : FVec F S4x8x2048x16x64 .f32) (main_arg4 : FVec F S4x8x2048x16x64 .f32) : IVec S_ 1 :=
  let main_v0 : FVec F S8x1x16x64 .f32 := Host.absf main_arg1
  let main_cst : FVec F S_ .f32 := constant S_ .f32 0x7F800000#32
  let main_v1 : FVec F S8x1x16x64 .f32 := broadcastInDim S8x1x16x64 ![] bcast_S_S8x1x16x64 main_cst
  let main_v2 : IVec S8x1x16x64 1 := cmpf .olt main_v0 main_v1
  let main_c : IVec S_ 1 := constantI S_ 1 1#1
  let main_v3 : IVec S_ 1 := (fun x v => Host.reduce IntOp.andi x v reducesTo_S8x1x16x64_S_d0_1_2_3 h_S_) main_v2 main_c
  let main_v4 : FVec F S8x1x16x64 .f32 := Host.absf main_arg2
  let main_cst_0 : FVec F S_ .f32 := constant S_ .f32 0x7F800000#32
  let main_v5 : FVec F S8x1x16x64 .f32 := broadcastInDim S8x1x16x64 ![] bcast_S_S8x1x16x64 main_cst_0
  let main_v6 : IVec S8x1x16x64 1 := cmpf .olt main_v4 main_v5
  let main_c_1 : IVec S_ 1 := constantI S_ 1 1#1
  let main_v7 : IVec S_ 1 := (fun x v => Host.reduce IntOp.andi x v reducesTo_S8x1x16x64_S_d0_1_2_3 h_S_) main_v6 main_c_1
  let main_v8 : IVec S_ 1 := andi main_v3 main_v7
  let main_v9 : FVec F S4x8x2048x16x64 .f32 := Host.absf main_arg3
  let main_cst_2 : FVec F S_ .f32 := constant S_ .f32 0x7F800000#32
  let main_v10 : FVec F S4x8x2048x16x64 .f32 := broadcastInDim S4x8x2048x16x64 ![] bcast_S_S4x8x2048x16x64 main_cst_2
  let main_v11 : IVec S4x8x2048x16x64 1 := cmpf .olt main_v9 main_v10
  let main_c_3 : IVec S_ 1 := constantI S_ 1 1#1
  let main_v12 : IVec S_ 1 := (fun x v => Host.reduce IntOp.andi x v reducesTo_S4x8x2048x16x64_S_d0_1_2_3_4 h_S_) main_v11 main_c_3
  let main_v13 : IVec S_ 1 := andi main_v8 main_v12
  let main_v14 : FVec F S4x8x2048x16x64 .f32 := Host.absf main_arg4
  let main_cst_4 : FVec F S_ .f32 := constant S_ .f32 0x7F800000#32
  let main_v15 : FVec F S4x8x2048x16x64 .f32 := broadcastInDim S4x8x2048x16x64 ![] bcast_S_S4x8x2048x16x64 main_cst_4
  let main_v16 : IVec S4x8x2048x16x64 1 := cmpf .olt main_v14 main_v15
  fn_part1 (F := F) main_arg0 main_v13 main_v16
-- ==== Kernel.lean ====
abbrev S_ : Shape := ⟨0, ![]⟩
abbrev S8x1x16x64 : Shape := ⟨4, ![8, 1, 16, 64]⟩
abbrev S4x8x2048x16x64 : Shape := ⟨5, ![4, 8, 2048, 16, 64]⟩
abbrev S8192 : Shape := ⟨1, ![8192]⟩

abbrev nBuf : Table → Nat
  | .hbm => 11
  | _ => 0

abbrev bufTy : (tb : Table) → Fin (nBuf tb) → BufTy
  | .hbm, ⟨0, _⟩ => ⟨S_, .i32⟩
  | .hbm, ⟨1, _⟩ => ⟨S8x1x16x64, .f32⟩
  | .hbm, ⟨2, _⟩ => ⟨S8x1x16x64, .f32⟩
  | .hbm, ⟨3, _⟩ => ⟨S4x8x2048x16x64, .f32⟩
  | .hbm, ⟨4, _⟩ => ⟨S4x8x2048x16x64, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8x1x16x64, .f32⟩
  | .hbm, ⟨10, _⟩ => ⟨S8x1x16x64, .f32⟩
  | _, _ => ⟨S_, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v0_scs : Ref sig .scScalar := ⟨.hbm, 5, rfl⟩
abbrev main_v1_scs : Ref sig .scScalar := ⟨.hbm, 6, rfl⟩
abbrev main_v2_0_scs : Ref sig .scScalar := ⟨.hbm, 7, rfl⟩
abbrev main_v2_1_scs : Ref sig .scScalar := ⟨.hbm, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  shapeCasts_S8x1x16x64_S8192 : S8x1x16x64.ShapeCasts S8192
  shapeCasts_S8192_S8x1x16x64 : S8192.ShapeCasts S8x1x16x64
  hcc0_scratch0 : 0 + S_.numel ≤ 2
  hcc0_scratch1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scratch0 : DmaSems sig S_ := SemArray.consecutive 0 S_ hcc0_scratch0
abbrev cc0_scratch1 : DmaSems sig S_ := SemArray.consecutive 1 S_ hcc0_scratch1

class Facts : Prop extends Facts₀ where

variable [Facts]
-- ==== ReferenceIdeal.lean ====
abbrev S_ : Shape := ⟨0, ![]⟩
abbrev S8x1x16x64 : Shape := ⟨4, ![8, 1, 16, 64]⟩
abbrev S4x8x2048x16x64 : Shape := ⟨5, ![4, 8, 2048, 16, 64]⟩
abbrev S8x16x64 : Shape := ⟨3, ![8, 16, 64]⟩
abbrev S1 : Shape := ⟨1, ![1]⟩
abbrev S2 : Shape := ⟨1, ![2]⟩
abbrev S1x8x1x16x64 : Shape := ⟨5, ![1, 8, 1, 16, 64]⟩

abbrev nBuf : Space → Nat
  | .hbm => 105
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x1x16x64, .f32⟩
  | .hbm, ⟨2, _⟩ => ⟨S8x1x16x64, .f32⟩
  | .hbm, ⟨3, _⟩ => ⟨S4x8x2048x16x64, .f32⟩
  | .hbm, ⟨4, _⟩ => ⟨S4x8x2048x16x64, .f32⟩
  | .hbm, ⟨5, _⟩ => ⟨S8x16x64, .f32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S4x8x2048x16x64, .f32⟩
  | .hbm, ⟨16, _⟩ => ⟨S8x16x64, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S4x8x2048x16x64, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x8x1x16x64, .f32⟩
  | .hbm, ⟨65, _⟩ => ⟨S8x1x16x64, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i1⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i1⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S1x8x1x16x64, .f32⟩
  | .hbm, ⟨104, _⟩ => ⟨S8x1x16x64, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_c_7 : Ref sig .tc := ⟨.hbm, 32, rfl⟩
abbrev main_c_8 : Ref sig .tc := ⟨.hbm, 33, rfl⟩
abbrev main_v19 : Ref sig .tc := ⟨.hbm, 34, rfl⟩
abbrev main_c_9 : Ref sig .tc := ⟨.hbm, 35, rfl⟩
abbrev main_c_10 : Ref sig .tc := ⟨.hbm, 36, rfl⟩
abbrev main_v20 : Ref sig .tc := ⟨.hbm, 37, rfl⟩
abbrev main_c_11 : Ref sig .tc := ⟨.hbm, 38, rfl⟩
abbrev main_v21 : Ref sig .tc := ⟨.hbm, 39, rfl⟩
abbrev main_c_12 : Ref sig .tc := ⟨.hbm, 40, rfl⟩
abbrev main_c_13 : Ref sig .tc := ⟨.hbm, 41, rfl⟩
abbrev main_v22 : Ref sig .tc := ⟨.hbm, 42, rfl⟩
abbrev main_c_14 : Ref sig .tc := ⟨.hbm, 43, rfl⟩
abbrev main_c_15 : Ref sig .tc := ⟨.hbm, 44, rfl⟩
abbrev main_v23 : Ref sig .tc := ⟨.hbm, 45, rfl⟩
abbrev main_c_16 : Ref sig .tc := ⟨.hbm, 46, rfl⟩
abbrev main_v24 : Ref sig .tc := ⟨.hbm, 47, rfl⟩
abbrev main_c_17 : Ref sig .tc := ⟨.hbm, 48, rfl⟩
abbrev main_c_18 : Ref sig .tc := ⟨.hbm, 49, rfl⟩
abbrev main_v25 : Ref sig .tc := ⟨.hbm, 50, rfl⟩
abbrev main_c_19 : Ref sig .tc := ⟨.hbm, 51, rfl⟩
abbrev main_c_20 : Ref sig .tc := ⟨.hbm, 52, rfl⟩
abbrev main_v26 : Ref sig .tc := ⟨.hbm, 53, rfl⟩
abbrev main_c_21 : Ref sig .tc := ⟨.hbm, 54, rfl⟩
abbrev main_v27 : Ref sig .tc := ⟨.hbm, 55, rfl⟩
abbrev main_c_22 : Ref sig .tc := ⟨.hbm, 56, rfl⟩
abbrev main_c_23 : Ref sig .tc := ⟨.hbm, 57, rfl⟩
abbrev main_v28 : Ref sig .tc := ⟨.hbm, 58, rfl⟩
abbrev main_c_24 : Ref sig .tc := ⟨.hbm, 59, rfl⟩
abbrev main_c_25 : Ref sig .tc := ⟨.hbm, 60, rfl⟩
abbrev main_v29 : Ref sig .tc := ⟨.hbm, 61, rfl⟩
abbrev main_c_26 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_27 : Ref sig .tc := ⟨.hbm, 66, rfl⟩
abbrev main_v33 : Ref sig .tc := ⟨.hbm, 67, rfl⟩
abbrev main_c_28 : Ref sig .tc := ⟨.hbm, 68, rfl⟩
abbrev main_v34 : Ref sig .tc := ⟨.hbm, 69, rfl⟩
abbrev main_v35 : Ref sig .tc := ⟨.hbm, 70, rfl⟩
abbrev main_c_29 : Ref sig .tc := ⟨.hbm, 71, rfl⟩
abbrev main_c_30 : Ref sig .tc := ⟨.hbm, 72, rfl⟩
abbrev main_v36 : Ref sig .tc := ⟨.hbm, 73, rfl⟩
abbrev main_c_31 : Ref sig .tc := ⟨.hbm, 74, rfl⟩
abbrev main_c_32 : Ref sig .tc := ⟨.hbm, 75, rfl⟩
abbrev main_v37 : Ref sig .tc := ⟨.hbm, 76, rfl⟩
abbrev main_c_33 : Ref sig .tc := ⟨.hbm, 77, rfl⟩
abbrev main_v38 : Ref sig .tc := ⟨.hbm, 78, rfl⟩
abbrev main_c_34 : Ref sig .tc := ⟨.hbm, 79, rfl⟩
abbrev main_c_35 : Ref sig .tc := ⟨.hbm, 80, rfl⟩
abbrev main_v39 : Ref sig .tc := ⟨.hbm, 81, rfl⟩
abbrev main_c_36 : Ref sig .tc := ⟨.hbm, 82, rfl⟩
abbrev main_c_37 : Ref sig .tc := ⟨.hbm, 83, rfl⟩
abbrev main_v40 : Ref sig .tc := ⟨.hbm, 84, rfl⟩
abbrev main_c_38 : Ref sig .tc := ⟨.hbm, 85, rfl⟩
abbrev main_v41 : Ref sig .tc := ⟨.hbm, 86, rfl⟩
abbrev main_c_39 : Ref sig .tc := ⟨.hbm, 87, rfl⟩
abbrev main_c_40 : Ref sig .tc := ⟨.hbm, 88, rfl⟩
abbrev main_v42 : Ref sig .tc := ⟨.hbm, 89, rfl⟩
abbrev main_c_41 : Ref sig .tc := ⟨.hbm, 90, rfl⟩
abbrev main_c_42 : Ref sig .tc := ⟨.hbm, 91, rfl⟩
abbrev main_v43 : Ref sig .tc := ⟨.hbm, 92, rfl⟩
abbrev main_c_43 : Ref sig .tc := ⟨.hbm, 93, rfl⟩
abbrev main_v44 : Ref sig .tc := ⟨.hbm, 94, rfl⟩
abbrev main_c_44 : Ref sig .tc := ⟨.hbm, 95, rfl⟩
abbrev main_c_45 : Ref sig .tc := ⟨.hbm, 96, rfl⟩
abbrev main_v45 : Ref sig .tc := ⟨.hbm, 97, rfl⟩
abbrev main_c_46 : Ref sig .tc := ⟨.hbm, 98, rfl⟩
abbrev main_c_47 : Ref sig .tc := ⟨.hbm, 99, rfl⟩
abbrev main_v46 : Ref sig .tc := ⟨.hbm, 100, rfl⟩
abbrev main_c_48 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩

abbrev nD : Nat := 1
abbrev τ : Topo := Topo.v7x

variable {F : FTy → Type} [FloatOps F]

class Facts₀ : Prop where
  shapeCasts_S8x1x16x64_S8x16x64 : S8x1x16x64.ShapeCasts S8x16x64
  bcast_S_S1 : S_.BroadcastsInDim S1 (![] : Fin 0 → Fin S1.rank)
  concatenates_S1_S1_S2_d0 : Shape.Concatenates [S1, S1] S2 0
  sliceFits_S4x8x2048x16x64_S1x8x1x16x64 : S4x8x2048x16x64.Slices (fun _ => 0) S1x8x1x16x64
  h_S_ : 0 < S_.numel
  shapeCasts_S1x8x1x16x64_S8x1x16x64 : S1x8x1x16x64.ShapeCasts S8x1x16x64
  scatter_S4x8x2048x16x64_S2_S8x16x64_012_02_02_0_wf : ScatterDims.WF S4x8x2048x16x64 S2 S8x16x64 [0, 1, 2] [0, 2] [0, 2] 0

variable [Facts₀]

def scatter_S4x8x2048x16x64_S2_S8x16x64_012_02_02_0 : ScatterDims S4x8x2048x16x64 S2 S8x16x64 where
  updateWindowDims := [0, 1, 2]
  insertedWindowDims := [0, 2]
  scatterDimsToOperandDims := [0, 2]
  indexVectorDim := 0
  wf := scatter_S4x8x2048x16x64_S2_S8x16x64_012_02_02_0_wf

class Facts : Prop extends Facts₀ where

variable [Facts]
-- ==== Proof.LibHeldRead.lean ====
/-
  Reading several held buffers off a final memory.

  A set of buffers of one device, each held whole at the full share at the contents a valuation gives it, together with
  the state interpretation of a machine state, says that the state's memory holds exactly those contents at every buffer
  of the set. One buffer is the rule that a full points-to agrees with the memory; that rule gives the state interpretation
  back, so the buffers of a finite set are read one after the other.
-/
import Idealize.ShloMosaic.Lib.StableHlo.Run

noncomputable section

namespace Cert.Lib.HeldRead

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- Buffers `S` of thread `c`'s device held whole at `V`, beside the state interpretation of `s'`: the memory of `s'`
    holds `V b` at every `b ∈ S`. -/
theorem held_agree (c : Thread nD τ) (S : Finset (DevRef τ sig)) (V : Valuation τ sig Val) (s' : Phys nD τ sig Val) :
    iprop((held c S V : sProp 𝕄) ∗ SI s') ⊢ (⌜∀ b ∈ S, s'.mem.mem (c.1, b) = V b⌝ : sProp 𝕄) := by
  classical
  induction S using Finset.induction_on with
  | empty =>
    iintro -
    ipureintro
    intro b hb
    exact absurd hb (Finset.notMem_empty b)
  | insert a s ha ih =>
    unfold held at ih ⊢
    have e : (bigSep (insert a s) fun b => ((c.1, b) ↦{fullShare} V b : sProp 𝕄))
        = iprop(((c.1, a) ↦{fullShare} V a) ∗ bigSep s fun b => ((c.1, b) ↦{fullShare} V b : sProp 𝕄)) := BI.bigSep_insert ha
    rw [e]
    iintro ⟨⟨Ha, Hs⟩, HSI⟩
    ihave H := (persistent_entails_right (SI_pointsTo_agree (st := s') (ℓ := (c.1, a)) (I := Finset.univ) (q := fullShare) (f := V a))) $$ [HSI Ha]
    · isplitl [HSI] <;> iassumption
    icases H with ⟨%h1, HSI, -⟩
    ihave H2 := ih $$ [Hs HSI]
    · isplitl [Hs] <;> iassumption
    icases H2 with %h2
    ipureintro
    intro b hb
    rcases Finset.mem_insert.mp hb with rfl | hb
    · exact funext fun i => h1 i (Finset.mem_univ i)
    · exact h2 b hb

end Cert.Lib.HeldRead

end
-- ==== Proof.KernelRun.lean ====
/-
  The run of the copy program, for either float instance.

  @main recasts `key` and `value` (each [8, 1, 16, 64]) row-major as two vectors of 8192 entries, starts ONE scalar subcore,
  and recasts what that subcore leaves in its two result vectors back to [8, 1, 16, 64]. The subcore's body starts two
  whole-array transfers HBM → HBM, the first vector into the first result on its first DMA semaphore and the second into
  the second result on its second, and then waits for the first and for the second. Each semaphore carries one transfer
  at a time and is the subcore's own, held at zero when the transfer is issued, and between a transfer's issue and its
  wait nothing reads its destination or writes its source: after the two waits each result vector holds the elements of
  its source vector as they stood when @main handed them over, and both sources are unchanged.

  So every weakly fair execution of the device's threads terminates without a fault, in a memory that holds, on the
  TensorCore's eleven arrays, the launch contents pushed through: the two recasts, the two copies, the two recasts back.
  The five argument arrays are among the buffers no step writes.
-/
import proofs.«209728_g83434034692786_cont_9to1_m_383_10_alg».proof.Defs
import proofs.«209728_g83434034692786_cont_9to1_m_383_10_alg».proof.Proof.LibHeldRead
import Idealize.ShloMosaic.Lib.SparseCore.Launch
import Idealize.ShloMosaic.Lib.StableHlo.Run
import Idealize.ShloMosaic.Lib.Pipeline.Kit
import Idealize.ShloMosaic.Lib.Pipeline.Frame
import Idealize.ShloMosaic.Lib.Pipeline.Value
import Idealize.ShloMosaic.Lib.Tactic
import proofs.«209728_g83434034692786_cont_9to1_m_383_10_alg».proof.Proof.Gen.Kernel
import proofs.«209728_g83434034692786_cont_9to1_m_383_10_alg».proof.Proof.Gen.Kernel.Skeleton

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no SparseCore buffer is reassigned per task: decided. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The four vectors the subcore touches -/

-- the subcore's memrefs, spelt as the body table passes them
local notation "aW" => (Memref.whole Cert.Kernel.main_v0_scs : Memref Cert.Kernel.sig Kind.scScalar Space.hbm Cert.Kernel.S8192 EltTy.f32)
local notation "bW" => (Memref.whole Cert.Kernel.main_v1_scs : Memref Cert.Kernel.sig Kind.scScalar Space.hbm Cert.Kernel.S8192 EltTy.f32)
local notation "oaW" => (Memref.whole Cert.Kernel.main_v2_0_scs : Memref Cert.Kernel.sig Kind.scScalar Space.hbm Cert.Kernel.S8192 EltTy.f32)
local notation "obW" => (Memref.whole Cert.Kernel.main_v2_1_scs : Memref Cert.Kernel.sig Kind.scScalar Space.hbm Cert.Kernel.S8192 EltTy.f32)

/-- The two source vectors and the two result vectors, as locations of device `d`. -/
abbrev aLoc (d : Dev nD) : Loc nD τ sig := (SparseCore.T d).loc main_v0
abbrev bLoc (d : Dev nD) : Loc nD τ sig := (SparseCore.T d).loc main_v1
abbrev oaLoc (d : Dev nD) : Loc nD τ sig := (SparseCore.T d).loc main_v2_0
abbrev obLoc (d : Dev nD) : Loc nD τ sig := (SparseCore.T d).loc main_v2_1

variable [FloatOps F]

section Call

-- what the two source vectors hold when @main starts the subcore
variable (A : (d : Dev nD) → Buf (Elt F) (aLoc d)) (B : (d : Dev nD) → Buf (Elt F) (bLoc d))

/-- Handed to the subcore: the sources at `A`, `B`, the results at whatever they hold. -/
def handed (d : Dev nD) : sProp 𝕄 :=
  iprop((aLoc d ↦{fullShare} A d) ∗ (bLoc d ↦{fullShare} B d) ∗ (∃ f, oaLoc d ↦{fullShare} f) ∗ (∃ f, obLoc d ↦{fullShare} f))

/-- Taken back: the sources unchanged, each result at its source's elements. -/
def back (d : Dev nD) : sProp 𝕄 :=
  iprop((aLoc d ↦{fullShare} A d) ∗ (bLoc d ↦{fullShare} B d)
    ∗ (oaLoc d ↦{fullShare} (A d : Buf (Elt F) (oaLoc d))) ∗ (obLoc d ↦{fullShare} (B d : Buf (Elt F) (obLoc d))))

instance handed_storable (d : Dev nD) : BI.Storable (upEmb : UEmb _ 𝕄) (handed A B d) := by
  unfold handed; infer_instance
instance back_storable (d : Dev nD) : BI.Storable (upEmb : UEmb _ 𝕄) (back A B d) := by
  unfold back; infer_instance

/-- The one call's payloads: `handed` to its one subcore, `back` from it; nothing of the launch's is consumed. -/
def P : (K (F := F)).Pay (nD := nD) (Val := Elt F) (Name := ℕ) (U := UU) where
  st := fun _ d _ => handed A B d
  dn := fun _ d _ => back A B d
  go := fun _ _ _ _ => iprop(emp)
  td := fun _ _ _ _ => iprop(emp)
  x := fun _ _ => iprop(emp)

instance P_storable : (P (F := F) A B).IsStorable where
  st _ d c := by unfold P; infer_instance
  dn _ d c := by unfold P; infer_instance
  go _ _ _ _ := by unfold P; infer_instance
  td _ _ _ _ := by unfold P; infer_instance

/-! ## The subcore's body -/

section Body

variable (d : Dev nD)

def coordsS (c : Fin (grid0.bound 0)) : grid0.Coords := fun | 0 => c | ⟨_ + 1, h⟩ => absurd h (Nat.not_lt.2 (Nat.le_add_left _ _))

/-- The subcore's two DMA semaphores. -/
abbrev cellA (c : Fin τ.nSC) : GSem nD τ sig := (S d c, .dma cc0_scratch0.sem)
abbrev cellB (c : Fin τ.nSC) : GSem nD τ sig := (S d c, .dma cc0_scratch1.sem)

omit [FloatOps F] in
theorem cellB_ne_cellA (c : Fin τ.nSC) : cellB d c ≠ cellA d c :=
  fun h => absurd (Prod.mk.inj h).2 (show (SemLoc.dma cc0_scratch1.sem : SemLoc sig) ≠ SemLoc.dma cc0_scratch0.sem by decide)

omit [FloatOps F] in
/-- The subcore's scoped semaphores at zero: its two DMA semaphores, and the rest. -/
theorem ownSems0_S (c : Fin τ.nSC) :
    (ownSems0 (S d c) : sProp 𝕄) = iprop(semVal (cellA d c) 0 ∗ semVal (cellB d c) 0
      ∗ bigSep (((ownCells (S d c)).erase (cellA d c)).erase (cellB d c)) fun g => semVal g 0) := by
  unfold SparseCore.Cfg.ownSems0
  rw [SparseCore.bigSep_erase' ((mem_ownCells (g := cellA d c)).mpr ⟨rfl, by show (SemLoc.dma cc0_scratch0.sem : SemLoc sig).isScoped .scScalar = true; decide⟩),
    SparseCore.bigSep_erase' (Finset.mem_erase.mpr ⟨cellB_ne_cellA d c,
      (mem_ownCells (g := cellB d c)).mpr ⟨rfl, by show (SemLoc.dma cc0_scratch1.sem : SemLoc sig).isScoped .scScalar = true; decide⟩⟩)]

omit [FloatOps F] in
/-- A vector as the subcore's memref addresses it is the TensorCore's array. -/
theorem pts_a (c : Fin τ.nSC) (f : Buf (Elt F) (aLoc d)) : ((aW).view.loc (S d c) ↦{fullShare} f : sProp 𝕄) = aLoc d ↦{fullShare} f := by
  simp only [Memref.view_whole, View.set_whole]
omit [FloatOps F] in
theorem pts_b (c : Fin τ.nSC) (f : Buf (Elt F) (bLoc d)) : ((bW).view.loc (S d c) ↦{fullShare} f : sProp 𝕄) = bLoc d ↦{fullShare} f := by
  simp only [Memref.view_whole, View.set_whole]
omit [FloatOps F] in
theorem pts_oa (c : Fin τ.nSC) (f : Buf (Elt F) (oaLoc d)) : ((oaW).view.loc (S d c) ↦{fullShare} f : sProp 𝕄) = oaLoc d ↦{fullShare} f := by
  simp only [Memref.view_whole, View.set_whole]
omit [FloatOps F] in
theorem pts_ob (c : Fin τ.nSC) (f : Buf (Elt F) (obLoc d)) : ((obW).view.loc (S d c) ↦{fullShare} f : sProp 𝕄) = obLoc d ↦{fullShare} f := by
  simp only [Memref.view_whole, View.set_whole]

/-- SparseCore 0's sequencer thread. -/
abbrev S0 (h : 0 < grid0.bound 0) : Thread nD τ := S d ((⟨0, h⟩ : Fin (grid0.bound 0)).castLE hcore0)

/-- The body on the one subcore: both transfers issued, each on its own semaphore held at zero; both waited for, each wait
    admissible under what the subcore owes the launch; each result then at its source's elements. -/
theorem body (h : 0 < grid0.bound 0) (O : CellTallies nD τ sig (HIx 1)) (W : Waits sig (HIx 1)) (hO : ∀ g, O g none = 0) :
    iprop(levAts (K (F := F)).L (K (F := F)).lev ∗ emp ∗ handed A B d
        ∗ scopedBufs (S0 d h) ∗ scopedSems0 (S0 d h) ∗ owes (S0 d h) O W)
      ⊢ wp frame (wpE (defs₀ (F := F)) 𝒱₀ (S0 d h) none) Set.univ
          (cc0_sc_copy (coordsS ⟨0, h⟩) aW (Memref.isWhole_whole _) bW (Memref.isWhole_whole _) oaW (Memref.isWhole_whole _) obW (Memref.isWhole_whole _) cc0_scratch0 cc0_scratch1)
          fun _ => iprop(back A B d ∗ scopedBufs (S0 d h) ∗ scopedSems0 (S0 d h) ∗ ∃ W', ⌜∀ p ∈ W', p ∈ W ∨ p.2 = none⌝ ∗ owes (S0 d h) O W') := by
  simp only [cc0_sc_copy_eq_skeleton]; unfold cc0_sc_copy_skel
  unfold handed
  iintro ⟨#Hlv, -, ⟨Ha, Hb, ⟨%fa, Hoa⟩, %fb, Hob⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨HsemA, HsemB, Hrest⟩
  ihave Hmw := ((K (F := F)).mayWaits_none (thr := S0 d h) hO) $$ Hlv
  ihave Ha' := (Entails.of_eq (pts_a (F := F) d (((⟨0, h⟩ : Fin (grid0.bound 0))).castLE hcore0) _).symm) $$ Ha
  ihave Hb' := (Entails.of_eq (pts_b (F := F) d (((⟨0, h⟩ : Fin (grid0.bound 0))).castLE hcore0) _).symm) $$ Hb
  ihave Hoa' := (Entails.of_eq (pts_oa (F := F) d (((⟨0, h⟩ : Fin (grid0.bound 0))).castLE hcore0) _).symm) $$ Hoa
  ihave Hob' := (Entails.of_eq (pts_ob (F := F) d (((⟨0, h⟩ : Fin (grid0.bound 0))).castLE hcore0) _).symm) $$ Hob
  sl_exec
  -- each destination, written whole with the transferred payload, holds its source's elements
  have ea : (oaW).view.write (Elt F) fa (body.sl.dma0 A d) Finset.univ = (A d : Buf (Elt F) (oaLoc d)) := by
    unfold body.sl.dma0
    rw [ReadAs.apply_same]
    exact View.write_whole_univ main_v2_0_scs fa _
  have eb : (obW).view.write (Elt F) fb (body.sl.dma0_1 B d) Finset.univ = (B d : Buf (Elt F) (obLoc d)) := by
    unfold body.sl.dma0_1
    rw [ReadAs.apply_same]
    exact View.write_whole_univ main_v2_1_scs fb _
  rw [ea, eb]
  sl_step
  unfold back
  isplitl [Ha' Hb' Hoa' Hob']
  · isplitl [Ha']; · iapply (Entails.of_eq (pts_a (F := F) d _ _)); iexact Ha'
    isplitl [Hb']; · iapply (Entails.of_eq (pts_b (F := F) d _ _)); iexact Hb'
    isplitl [Hoa']; · iapply (Entails.of_eq (pts_oa (F := F) d _ _)); iexact Hoa'
    iapply (Entails.of_eq (pts_ob (F := F) d _ _)); iexact Hob'
  isplitl [Hsb]; · iexact Hsb
  isplitl [HsemA HsemB Hrest Hsubs]
  · iapply (SparseCore.Cfg.scopedSems0_S_intro (Val := Elt F) d _)
    isplitl [HsemA HsemB Hrest]
    · rw [ownSems0_S]
      isplitl [HsemA]; · iexact HsemA
      isplitl [HsemB]; · iexact HsemB
      iexact Hrest
    · iexact Hsubs
  iexists (insert (SemLoc.dma cc0_scratch1.sem, (default : HIx 1)) (insert (SemLoc.dma cc0_scratch0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Body

/-! ## The launch theorem's obligation -/

theorem defs₀_scalar (c : Fin τ.nSC) :
    defs₀ (F := F) (.scScalar c) 0 ()
      = SparseCore.onCore hcore0 (fun c => cc0_sc_copy (coordsS c) aW (Memref.isWhole_whole _) bW (Memref.isWhole_whole _)
          oaW (Memref.isWhole_whole _) obW (Memref.isWhole_whole _) cc0_scratch0 cc0_scratch1) ⟨⟩ c := rfl

omit [FloatOps F] in
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The obligation for the one scalar call: its one subcore runs `body`. -/
theorem scalarObl : (K (F := F)).ScalarObl (D (F := F)) 𝒱 (P A B) v₀ 0 := by
  intro d c O W hO _ _
  -- the kernel owes nothing for a protocol of its own
  simp only [show (P A B).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ handed A B d ∗ _) ⊢ wp _ _ _ _ (fun _ => iprop(back A B d ∗ _))
  match c with
  | ⟨0, h⟩ => exact (body A B d h O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A B).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Call

/-! ## @main on the TensorCore -/

section Main

variable (m : (ℓ : Loc nD τ sig) → Buf (Elt F) ℓ) (ρ : Dev nD → PrngReg)

abbrev k' : DevRef τ sig := Proc.devRef .tc (main_arg1 : Ref sig .tc)
abbrev v' : DevRef τ sig := Proc.devRef .tc (main_arg2 : Ref sig .tc)
abbrev a' : DevRef τ sig := Proc.devRef .tc (main_v0 : Ref sig .tc)
abbrev b' : DevRef τ sig := Proc.devRef .tc (main_v1 : Ref sig .tc)
abbrev oa' : DevRef τ sig := Proc.devRef .tc (main_v2_0 : Ref sig .tc)
abbrev ob' : DevRef τ sig := Proc.devRef .tc (main_v2_1 : Ref sig .tc)
abbrev ya' : DevRef τ sig := Proc.devRef .tc (main_v3 : Ref sig .tc)
abbrev yb' : DevRef τ sig := Proc.devRef .tc (main_v4 : Ref sig .tc)

/-- The two recasts before the call and the two after it. -/
abbrev opA : HloOp τ sig (Elt F) := StableHlo.reshape main_arg1 main_v0 rfl Facts₀.shapeCasts_S8x1x16x64_S8192
abbrev opB : HloOp τ sig (Elt F) := StableHlo.reshape main_arg2 main_v1 rfl Facts₀.shapeCasts_S8x1x16x64_S8192
abbrev opC : HloOp τ sig (Elt F) := StableHlo.reshape main_v2_0 main_v3 rfl Facts₀.shapeCasts_S8192_S8x1x16x64
abbrev opD : HloOp τ sig (Elt F) := StableHlo.reshape main_v2_1 main_v4 rfl Facts₀.shapeCasts_S8192_S8x1x16x64

/-- Every unscoped buffer of the device: what the TensorCore holds whole throughout @main. -/
abbrev SU : Finset (DevRef τ sig) := Pipeline.ucRefs τ sig
/-- The four vectors the call takes. -/
abbrev S4 : Finset (DevRef τ sig) := {a', b', oa', ob'}

theorem hA : (opA (F := F)).bufs ⊆ SU := Pipeline.sub_ucRefs _ (StableHlo.reshape_bufs_sub ..)
theorem hB : (opB (F := F)).bufs ⊆ SU := Pipeline.sub_ucRefs _ (StableHlo.reshape_bufs_sub ..)
theorem hC : (opC (F := F)).bufs ⊆ SU := Pipeline.sub_ucRefs _ (StableHlo.reshape_bufs_sub ..)
theorem hD : (opD (F := F)).bufs ⊆ SU := Pipeline.sub_ucRefs _ (StableHlo.reshape_bufs_sub ..)
omit [FloatOps F] in
theorem hS4 : S4 ⊆ SU := by
  intro b hb
  simp only [S4, Finset.mem_insert, Finset.mem_singleton] at hb
  rcases hb with rfl | rfl | rfl | rfl <;>
    exact Finset.mem_filter.mpr ⟨StableHlo.devRef_mem_tcRefs _, by decide⟩

/-- The device's buffers: at launch; after the two recasts; after the call (each result at its source); after the two
    recasts back. -/
def V0 (d : Dev nD) : Valuation τ sig (Elt F) := fun b => m (d, b)
abbrev V2 (d : Dev nD) : Valuation τ sig (Elt F) := (opB (F := F)).result ((opA (F := F)).result (V0 m d))
/-- What the two source vectors hold at the call. -/
abbrev A (d : Dev nD) : Buf (Elt F) (aLoc d) := V2 m d a'
abbrev B (d : Dev nD) : Buf (Elt F) (bLoc d) := V2 m d b'
def V3 (d : Dev nD) : Valuation τ sig (Elt F) := Function.update (Function.update (V2 m d) oa' (A m d)) ob' (B m d)
abbrev V5 (d : Dev nD) : Valuation τ sig (Elt F) := (opD (F := F)).result ((opC (F := F)).result (V3 m d))

omit [FloatOps F] in
theorem held_S4 (d : Dev nD) (W : Valuation τ sig (Elt F)) :
    (held (T d) S4 W : sProp 𝕄) = iprop((aLoc d ↦{fullShare} W a') ∗ (bLoc d ↦{fullShare} W b') ∗ (oaLoc d ↦{fullShare} W oa') ∗ (obLoc d ↦{fullShare} W ob')) := by
  unfold held S4
  rw [SparseCore.bigSep_insert' (by decide), SparseCore.bigSep_insert' (by decide), SparseCore.bigSep_insert' (by decide), bigSep_singleton]

theorem V3_a (d : Dev nD) : V3 m d a' = A m d :=
  (Function.update_of_ne (show a' ≠ ob' by decide) _ _).trans (Function.update_of_ne (show a' ≠ oa' by decide) _ _)
theorem V3_b (d : Dev nD) : V3 m d b' = B m d :=
  (Function.update_of_ne (show b' ≠ ob' by decide) _ _).trans (Function.update_of_ne (show b' ≠ oa' by decide) _ _)
theorem V3_oa (d : Dev nD) : V3 m d oa' = A m d :=
  (Function.update_of_ne (show oa' ≠ ob' by decide) _ _).trans (Function.update_self _ _ _)
theorem V3_ob (d : Dev nD) : V3 m d ob' = B m d := Function.update_self _ _ _
theorem V3_rest (d : Dev nD) (b : DevRef τ sig) (hb : b ∈ SU \ S4) : V2 m d b = V3 m d b := by
  have hn : b ∉ S4 := (Finset.mem_sdiff.mp hb).2
  have h1 : b ≠ ob' := fun e => hn (e ▸ (by decide : ob' ∈ S4))
  have h2 : b ≠ oa' := fun e => hn (e ▸ (by decide : oa' ∈ S4))
  exact ((Function.update_of_ne h1 _ _).trans (Function.update_of_ne h2 _ _)).symm

/-- What the call takes for its one SparseCore, and what it hands back. -/
theorem st0_eq (d : Dev nD) : (bigSep Finset.univ fun c : Fin ((K (F := F)).nCore 0) => (P (A m) (B m)).st 0 d c) = handed (A m) (B m) d := by
  show (bigSep (Finset.univ : Finset (Fin 1)) fun _ => handed (A m) (B m) d) = _
  rw [show (Finset.univ : Finset (Fin 1)) = {0} by decide, bigSep_singleton]
theorem dn0_eq (d : Dev nD) : (bigSep Finset.univ fun c : Fin ((K (F := F)).nCore 0) => (P (A m) (B m)).dn 0 d c) = back (A m) (B m) d := by
  show (bigSep (Finset.univ : Finset (Fin 1)) fun _ => back (A m) (B m) d) = _
  rw [show (Finset.univ : Finset (Fin 1)) = {0} by decide, bigSep_singleton]

/-- What @main leaves the claim: every unscoped buffer whole at the final valuation. -/
abbrev FIN (d : Dev nD) : sProp 𝕄 := held (T d) SU (V5 m d)

/-- @main on device `d`'s TensorCore: the two recasts, the call (the four vectors to the subcore and back), the two recasts
    back, every other buffer held untouched. -/
theorem hmain (κ : GSem nD τ sig → ℕ) (d : Dev nD) :
    iprop((K (F := F)).ctx EH (P (A m) (B m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (T d) SU (V0 m d) from
    Pipeline.unscopedBufs_held (Ix := HIx 1) (Name := ℕ) (U := UU) (Lvl := ℕ) d (V0 m d)]
  simp only [main, wp_bind, wp_pure]
  iintro ⟨#Hctx, Hst, ⟨Hb, Hheld, -, -⟩, -⟩
  -- the two recasts
  iapply (wp_hlo_within 𝒱 (SparseCore.T d) none Set.univ (op := opA) (S := SU) hA (V := V0 m d)) $$ [Hb Hheld]
  · isplitl [Hb] <;> iassumption
  iintro ⟨Hb, Hheld⟩
  rw [wp_ret]; imodintro
  iapply (wp_hlo_within 𝒱 (SparseCore.T d) none Set.univ (op := opB) (S := SU) hB (V := (opA (F := F)).result (V0 m d))) $$ [Hb Hheld]
  · isplitl [Hb] <;> iassumption
  iintro ⟨Hb, Hheld⟩
  rw [wp_ret]; imodintro
  -- the call: the four vectors out of the held set, to the subcore and back
  ihave Hh := (Entails.of_eq (held_sub_split (T d) hS4 (V2 m d))) $$ Hheld
  icases Hh with ⟨H4, Hrest⟩
  ihave H4' := (Entails.of_eq (held_S4 (F := F) d (V2 m d))) $$ H4
  icases H4' with ⟨Ha, Hbb, Hoa, Hob⟩
  iapply ((K (F := F)).wp_run (D (F := F)) 𝒱 (EH := EH) (P := P (A m) (B m)) κ d 0) $$ [Hst Ha Hbb Hoa Hob Hb Hrest]
  isplitr; · iexact Hctx
  isplitl [Hst]; · iexact Hst
  isplitl [Ha Hbb Hoa Hob]
  · rw [st0_eq]; unfold handed
    isplitl [Ha]; · iexact Ha
    isplitl [Hbb]; · iexact Hbb
    isplitl [Hoa]; · iexists _; iexact Hoa
    iexists _; iexact Hob
  iintro ⟨Hst, Hdn⟩
  ihave Hdn' := (Entails.of_eq (dn0_eq m d)) $$ Hdn
  unfold back
  icases Hdn' with ⟨Ha, Hbb, Hoa, Hob⟩
  -- the two recasts back, over the held set at the valuation updated at the two results
  iapply (wp_hlo_within 𝒱 (SparseCore.T d) none Set.univ (op := opC) (S := SU) hC (V := V3 m d)) $$ [Hb Ha Hbb Hoa Hob Hrest]
  · isplitl [Hb]; · iexact Hb
    rw [held_sub_split (T d) hS4 (V3 m d), held_S4, V3_a, V3_b, V3_oa, V3_ob, ← held_congr (T d) (V3_rest m d)]
    isplitl [Ha Hbb Hoa Hob]
    · isplitl [Ha]; · iexact Ha
      isplitl [Hbb]; · iexact Hbb
      isplitl [Hoa]; · iexact Hoa
      iexact Hob
    · iexact Hrest
  iintro ⟨Hb, Hheld⟩
  rw [wp_ret]; imodintro
  iapply (wp_hlo_within 𝒱 (SparseCore.T d) none Set.univ (op := opD) (S := SU) hD (V := (opC (F := F)).result (V3 m d))) $$ [Hb Hheld]
  · isplitl [Hb] <;> iassumption
  iintro ⟨Hb, Hheld⟩
  rw [wp_ret]; imodintro; imodintro
  isplitl [Hst]; · iexact Hst
  iexact Hheld

/-- The final memory holds the final valuation on every unscoped buffer. -/
def fq (d : Dev nD) (s' : Phys nD τ sig (Elt F)) : Prop := ∀ b ∈ SU, s'.mem.mem (d, b) = V5 m d b

theorem hfin (d : Dev nD) (s' : Phys nD τ sig (Elt F)) : iprop(FIN m d ∗ SI s') ⊢ (⌜fq m d s'⌝ : sProp 𝕄) :=
  Cert.Lib.HeldRead.held_agree (T d) SU (V5 m d) s'

/-! ## The program's run -/

def QC : PUnit × MemSt nD τ sig (Elt F) → Prop := fun r => ∀ (c : Dev nD), ∀ b ∈ SU, r.2.mem (c, b) = V5 m c b

/-- Every weakly fair execution of the device's threads terminates, without a fault, with every unscoped buffer of the
    TensorCore at the final valuation. -/
theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (A m) (B m)) launchFacts v₀
    (fun q _ => match q with | 0 => scalarObl (A m) (B m))
    (fun q hq => match q with | 0 => nomatch hq)
    (fun q hq => match q with | 0 => nomatch hq)
    m ρ main (fun _ => iprop(emp)) (FIN m) (u₀ (F := F)) (sep_elim_left.trans (hu₀ (A m) (B m))) (hmain m ρ) (fq m) (hfin m) (QC m) (fun _ h => h)

end Main

/-! ## The final valuation at the buffers the claims name -/

section Named

variable (m : (ℓ : Loc nD τ sig) → Buf (Elt F) ℓ) (ρ : Dev nD → PrngReg)

omit [FloatOps F] in
theorem mem_SU (b : Ref sig .tc) (h : ¬ (Proc.devRef .tc b : DevRef τ sig).isScoped) : (Proc.devRef .tc b : DevRef τ sig) ∈ SU :=
  Finset.mem_filter.mpr ⟨StableHlo.devRef_mem_tcRefs _, h⟩

/-- At the call the first source vector is the new keys recast row-major, the second the new values. -/
theorem A_eq (d : Dev nD) : A m d = fun i => shapeCast S8192 (m (d, k')) Facts₀.shapeCasts_S8x1x16x64_S8192 i := by
  show (opB (F := F)).result ((opA (F := F)).result (V0 m d)) a' = _
  rw [(opB (F := F)).result_of_not_mem _ (b := a') (show a' ∉ ({b'} : Finset (DevRef τ sig)) by decide)]
  exact StableHlo.reshape_result main_arg1 main_v0 rfl _ _ _ (V0 m d)
theorem B_eq (d : Dev nD) : B m d = fun i => shapeCast S8192 (m (d, v')) Facts₀.shapeCasts_S8x1x16x64_S8192 i := by
  show (opB (F := F)).result ((opA (F := F)).result (V0 m d)) b' = _
  refine (StableHlo.reshape_result main_arg2 main_v1 rfl _ _ _ ((opA (F := F)).result (V0 m d))).trans ?_
  rw [(opA (F := F)).result_of_not_mem _ (b := v') (show v' ∉ ({a'} : Finset (DevRef τ sig)) by decide)]
  rfl

/-- The first result array ends at the new keys: recast to a vector, copied, recast back. -/
theorem V5_ya (d : Dev nD) : V5 m d ya' = (m (d, k') : Buf (Elt F) (d, ya')) := by
  show (opD (F := F)).result ((opC (F := F)).result (V3 m d)) ya' = _
  rw [(opD (F := F)).result_of_not_mem _ (b := ya') (show ya' ∉ ({yb'} : Finset (DevRef τ sig)) by decide)]
  refine (StableHlo.reshape_result main_v2_0 main_v3 rfl _ _ _ (V3 m d)).trans ?_
  rw [show V3 m d (Proc.devRef .tc (main_v2_0 : Ref sig .tc)) = A m d from V3_oa m d, A_eq]
  exact shapeCast_shapeCast (m (d, k')) _ _
/-- The second result array ends at the new values. -/
theorem V5_yb (d : Dev nD) : V5 m d yb' = (m (d, v') : Buf (Elt F) (d, yb')) := by
  show (opD (F := F)).result ((opC (F := F)).result (V3 m d)) yb' = _
  refine (StableHlo.reshape_result main_v2_1 main_v4 rfl _ _ _ ((opC (F := F)).result (V3 m d))).trans ?_
  rw [(opC (F := F)).result_of_not_mem _ (b := ob') (show ob' ∉ ({ya'} : Finset (DevRef τ sig)) by decide),
    show V3 m d (Proc.devRef .tc (main_v2_1 : Ref sig .tc)) = B m d from V3_ob m d, B_eq]
  exact shapeCast_shapeCast (m (d, v')) _ _

/-- A buffer that is none of the six the program writes ends as it began. -/
theorem V5_kept (d : Dev nD) (b : DevRef τ sig) (h1 : b ≠ ya') (h2 : b ≠ yb') (h3 : b ≠ oa') (h4 : b ≠ ob') (h5 : b ≠ a') (h6 : b ≠ b') :
    V5 m d b = m (d, b) := by
  show (opD (F := F)).result ((opC (F := F)).result (V3 m d)) b = _
  rw [(opD (F := F)).result_of_not_mem _ (b := b) (Finset.notMem_singleton.mpr h2),
    (opC (F := F)).result_of_not_mem _ (b := b) (Finset.notMem_singleton.mpr h1)]
  show Function.update (Function.update (V2 m d) oa' (A m d)) ob' (B m d) b = _
  rw [Function.update_of_ne h4, Function.update_of_ne h3]
  show (opB (F := F)).result ((opA (F := F)).result (V0 m d)) b = _
  rw [(opB (F := F)).result_of_not_mem _ (b := b) (Finset.notMem_singleton.mpr h6),
    (opA (F := F)).result_of_not_mem _ (b := b) (Finset.notMem_singleton.mpr h5)]
  rfl

/-- The run with every buffer the claims name: the two results at the new keys and the new values, the five arguments
    unchanged. -/
theorem run_named [∀ e, Nonempty (Elt F e)] :
    θ_run (Cert.Kernel.defs (F := F)) (Cert.Kernel.threads (F := F)) ⟨m, fun _ => 0, ρ⟩ (fun r => ∀ c : Dev nD,
      r.2.mem ((c.tc : Thread nD τ).loc main_v3) = (m ((c.tc : Thread nD τ).loc main_arg1) : Buf (Elt F) ((c.tc : Thread nD τ).loc main_v3))
      ∧ r.2.mem ((c.tc : Thread nD τ).loc main_v4) = (m ((c.tc : Thread nD τ).loc main_arg2) : Buf (Elt F) ((c.tc : Thread nD τ).loc main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.Kernel.defs (F := F)) _ _).mono (fun r h c =>
    ⟨(h c ya' (mem_SU main_v3 (by decide))).trans (V5_ya m c),
     (h c yb' (mem_SU main_v4 (by decide))).trans (V5_yb m c),
     (h c _ (mem_SU main_arg0 (by decide))).trans (V5_kept m c _ (by decide) (by decide) (by decide) (by decide) (by decide) (by decide)),
     (h c _ (mem_SU main_arg1 (by decide))).trans (V5_kept m c _ (by decide) (by decide) (by decide) (by decide) (by decide) (by decide)),
     (h c _ (mem_SU main_arg2 (by decide))).trans (V5_kept m c _ (by decide) (by decide) (by decide) (by decide) (by decide) (by decide)),
     (h c _ (mem_SU main_arg3 (by decide))).trans (V5_kept m c _ (by decide) (by decide) (by decide) (by decide) (by decide) (by decide)),
     (h c _ (mem_SU main_arg4 (by decide))).trans (V5_kept m c _ (by decide) (by decide) (by decide) (by decide) (by decide) (by decide))⟩)
    (run_main m ρ)

end Named

end Cert.Proof.KernelRun

end
-- ==== Proof.KernelIdealRun.lean ====
/-
  The run of the copy program, for either float instance.

  @main recasts `key` and `value` (each [8, 1, 16, 64]) row-major as two vectors of 8192 entries, starts ONE scalar subcore,
  and recasts what that subcore leaves in its two result vectors back to [8, 1, 16, 64]. The subcore's body starts two
  whole-array transfers HBM → HBM, the first vector into the first result on its first DMA semaphore and the second into
  the second result on its second, and then waits for the first and for the second. Each semaphore carries one transfer
  at a time and is the subcore's own, held at zero when the transfer is issued, and between a transfer's issue and its
  wait nothing reads its destination or writes its source: after the two waits each result vector holds the elements of
  its source vector as they stood when @main handed them over, and both sources are unchanged.

  So every weakly fair execution of the device's threads terminates without a fault, in a memory that holds, on the
  TensorCore's eleven arrays, the launch contents pushed through: the two recasts, the two copies, the two recasts back.
  The five argument arrays are among the buffers no step writes.
-/
import proofs.«209728_g83434034692786_cont_9to1_m_383_10_alg».proof.Defs
import proofs.«209728_g83434034692786_cont_9to1_m_383_10_alg».proof.Proof.LibHeldRead
import Idealize.ShloMosaic.Lib.SparseCore.Launch
import Idealize.ShloMosaic.Lib.StableHlo.Run
import Idealize.ShloMosaic.Lib.Pipeline.Kit
import Idealize.ShloMosaic.Lib.Pipeline.Frame
import Idealize.ShloMosaic.Lib.Pipeline.Value
import Idealize.ShloMosaic.Lib.Tactic
import proofs.«209728_g83434034692786_cont_9to1_m_383_10_alg».proof.Proof.Gen.KernelIdeal
import proofs.«209728_g83434034692786_cont_9to1_m_383_10_alg».proof.Proof.Gen.KernelIdeal.Skeleton

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no SparseCore buffer is reassigned per task: decided. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The four vectors the subcore touches -/

-- the subcore's memrefs, spelt as the body table passes them
local notation "aW" => (Memref.whole Cert.KernelIdeal.main_v0_scs : Memref Cert.KernelIdeal.sig Kind.scScalar Space.hbm Cert.KernelIdeal.S8192 EltTy.f32)
local notation "bW" => (Memref.whole Cert.KernelIdeal.main_v1_scs : Memref Cert.KernelIdeal.sig Kind.scScalar Space.hbm Cert.KernelIdeal.S8192 EltTy.f32)
local notation "oaW" => (Memref.whole Cert.KernelIdeal.main_v2_0_scs : Memref Cert.KernelIdeal.sig Kind.scScalar Space.hbm Cert.KernelIdeal.S8192 EltTy.f32)
local notation "obW" => (Memref.whole Cert.KernelIdeal.main_v2_1_scs : Memref Cert.KernelIdeal.sig Kind.scScalar Space.hbm Cert.KernelIdeal.S8192 EltTy.f32)

/-- The two source vectors and the two result vectors, as locations of device `d`. -/
abbrev aLoc (d : Dev nD) : Loc nD τ sig := (SparseCore.T d).loc main_v0
abbrev bLoc (d : Dev nD) : Loc nD τ sig := (SparseCore.T d).loc main_v1
abbrev oaLoc (d : Dev nD) : Loc nD τ sig := (SparseCore.T d).loc main_v2_0
abbrev obLoc (d : Dev nD) : Loc nD τ sig := (SparseCore.T d).loc main_v2_1

variable [FloatOps F]

section Call

-- what the two source vectors hold when @main starts the subcore
variable (A : (d : Dev nD) → Buf (Elt F) (aLoc d)) (B : (d : Dev nD) → Buf (Elt F) (bLoc d))

/-- Handed to the subcore: the sources at `A`, `B`, the results at whatever they hold. -/
def handed (d : Dev nD) : sProp 𝕄 :=
  iprop((aLoc d ↦{fullShare} A d) ∗ (bLoc d ↦{fullShare} B d) ∗ (∃ f, oaLoc d ↦{fullShare} f) ∗ (∃ f, obLoc d ↦{fullShare} f))

/-- Taken back: the sources unchanged, each result at its source's elements. -/
def back (d : Dev nD) : sProp 𝕄 :=
  iprop((aLoc d ↦{fullShare} A d) ∗ (bLoc d ↦{fullShare} B d)
    ∗ (oaLoc d ↦{fullShare} (A d : Buf (Elt F) (oaLoc d))) ∗ (obLoc d ↦{fullShare} (B d : Buf (Elt F) (obLoc d))))

instance handed_storable (d : Dev nD) : BI.Storable (upEmb : UEmb _ 𝕄) (handed A B d) := by
  unfold handed; infer_instance
instance back_storable (d : Dev nD) : BI.Storable (upEmb : UEmb _ 𝕄) (back A B d) := by
  unfold back; infer_instance

/-- The one call's payloads: `handed` to its one subcore, `back` from it; nothing of the launch's is consumed. -/
def P : (K (F := F)).Pay (nD := nD) (Val := Elt F) (Name := ℕ) (U := UU) where
  st := fun _ d _ => handed A B d
  dn := fun _ d _ => back A B d
  go := fun _ _ _ _ => iprop(emp)
  td := fun _ _ _ _ => iprop(emp)
  x := fun _ _ => iprop(emp)

instance P_storable : (P (F := F) A B).IsStorable where
  st _ d c := by unfold P; infer_instance
  dn _ d c := by unfold P; infer_instance
  go _ _ _ _ := by unfold P; infer_instance
  td _ _ _ _ := by unfold P; infer_instance

/-! ## The subcore's body -/

section Body

variable (d : Dev nD)

def coordsS (c : Fin (grid0.bound 0)) : grid0.Coords := fun | 0 => c | ⟨_ + 1, h⟩ => absurd h (Nat.not_lt.2 (Nat.le_add_left _ _))

/-- The subcore's two DMA semaphores. -/
abbrev cellA (c : Fin τ.nSC) : GSem nD τ sig := (S d c, .dma cc0_scratch0.sem)
abbrev cellB (c : Fin τ.nSC) : GSem nD τ sig := (S d c, .dma cc0_scratch1.sem)

omit [FloatOps F] in
theorem cellB_ne_cellA (c : Fin τ.nSC) : cellB d c ≠ cellA d c :=
  fun h => absurd (Prod.mk.inj h).2 (show (SemLoc.dma cc0_scratch1.sem : SemLoc sig) ≠ SemLoc.dma cc0_scratch0.sem by decide)

omit [FloatOps F] in
/-- The subcore's scoped semaphores at zero: its two DMA semaphores, and the rest. -/
theorem ownSems0_S (c : Fin τ.nSC) :
    (ownSems0 (S d c) : sProp 𝕄) = iprop(semVal (cellA d c) 0 ∗ semVal (cellB d c) 0
      ∗ bigSep (((ownCells (S d c)).erase (cellA d c)).erase (cellB d c)) fun g => semVal g 0) := by
  unfold SparseCore.Cfg.ownSems0
  rw [SparseCore.bigSep_erase' ((mem_ownCells (g := cellA d c)).mpr ⟨rfl, by show (SemLoc.dma cc0_scratch0.sem : SemLoc sig).isScoped .scScalar = true; decide⟩),
    SparseCore.bigSep_erase' (Finset.mem_erase.mpr ⟨cellB_ne_cellA d c,
      (mem_ownCells (g := cellB d c)).mpr ⟨rfl, by show (SemLoc.dma cc0_scratch1.sem : SemLoc sig).isScoped .scScalar = true; decide⟩⟩)]

omit [FloatOps F] in
/-- A vector as the subcore's memref addresses it is the TensorCore's array. -/
theorem pts_a (c : Fin τ.nSC) (f : Buf (Elt F) (aLoc d)) : ((aW).view.loc (S d c) ↦{fullShare} f : sProp 𝕄) = aLoc d ↦{fullShare} f := by
  simp only [Memref.view_whole, View.set_whole]
omit [FloatOps F] in
theorem pts_b (c : Fin τ.nSC) (f : Buf (Elt F) (bLoc d)) : ((bW).view.loc (S d c) ↦{fullShare} f : sProp 𝕄) = bLoc d ↦{fullShare} f := by
  simp only [Memref.view_whole, View.set_whole]
omit [FloatOps F] in
theorem pts_oa (c : Fin τ.nSC) (f : Buf (Elt F) (oaLoc d)) : ((oaW).view.loc (S d c) ↦{fullShare} f : sProp 𝕄) = oaLoc d ↦{fullShare} f := by
  simp only [Memref.view_whole, View.set_whole]
omit [FloatOps F] in
theorem pts_ob (c : Fin τ.nSC) (f : Buf (Elt F) (obLoc d)) : ((obW).view.loc (S d c) ↦{fullShare} f : sProp 𝕄) = obLoc d ↦{fullShare} f := by
  simp only [Memref.view_whole, View.set_whole]

/-- SparseCore 0's sequencer thread. -/
abbrev S0 (h : 0 < grid0.bound 0) : Thread nD τ := S d ((⟨0, h⟩ : Fin (grid0.bound 0)).castLE hcore0)

/-- The body on the one subcore: both transfers issued, each on its own semaphore held at zero; both waited for, each wait
    admissible under what the subcore owes the launch; each result then at its source's elements. -/
theorem body (h : 0 < grid0.bound 0) (O : CellTallies nD τ sig (HIx 1)) (W : Waits sig (HIx 1)) (hO : ∀ g, O g none = 0) :
    iprop(levAts (K (F := F)).L (K (F := F)).lev ∗ emp ∗ handed A B d
        ∗ scopedBufs (S0 d h) ∗ scopedSems0 (S0 d h) ∗ owes (S0 d h) O W)
      ⊢ wp frame (wpE (defs₀ (F := F)) 𝒱₀ (S0 d h) none) Set.univ
          (cc0_sc_copy (coordsS ⟨0, h⟩) aW (Memref.isWhole_whole _) bW (Memref.isWhole_whole _) oaW (Memref.isWhole_whole _) obW (Memref.isWhole_whole _) cc0_scratch0 cc0_scratch1)
          fun _ => iprop(back A B d ∗ scopedBufs (S0 d h) ∗ scopedSems0 (S0 d h) ∗ ∃ W', ⌜∀ p ∈ W', p ∈ W ∨ p.2 = none⌝ ∗ owes (S0 d h) O W') := by
  simp only [cc0_sc_copy_eq_skeleton]; unfold cc0_sc_copy_skel
  unfold handed
  iintro ⟨#Hlv, -, ⟨Ha, Hb, ⟨%fa, Hoa⟩, %fb, Hob⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨HsemA, HsemB, Hrest⟩
  ihave Hmw := ((K (F := F)).mayWaits_none (thr := S0 d h) hO) $$ Hlv
  ihave Ha' := (Entails.of_eq (pts_a (F := F) d (((⟨0, h⟩ : Fin (grid0.bound 0))).castLE hcore0) _).symm) $$ Ha
  ihave Hb' := (Entails.of_eq (pts_b (F := F) d (((⟨0, h⟩ : Fin (grid0.bound 0))).castLE hcore0) _).symm) $$ Hb
  ihave Hoa' := (Entails.of_eq (pts_oa (F := F) d (((⟨0, h⟩ : Fin (grid0.bound 0))).castLE hcore0) _).symm) $$ Hoa
  ihave Hob' := (Entails.of_eq (pts_ob (F := F) d (((⟨0, h⟩ : Fin (grid0.bound 0))).castLE hcore0) _).symm) $$ Hob
  sl_exec
  -- each destination, written whole with the transferred payload, holds its source's elements
  have ea : (oaW).view.write (Elt F) fa (body.sl.dma0 A d) Finset.univ = (A d : Buf (Elt F) (oaLoc d)) := by
    unfold body.sl.dma0
    rw [ReadAs.apply_same]
    exact View.write_whole_univ main_v2_0_scs fa _
  have eb : (obW).view.write (Elt F) fb (body.sl.dma0_1 B d) Finset.univ = (B d : Buf (Elt F) (obLoc d)) := by
    unfold body.sl.dma0_1
    rw [ReadAs.apply_same]
    exact View.write_whole_univ main_v2_1_scs fb _
  rw [ea, eb]
  sl_step
  unfold back
  isplitl [Ha' Hb' Hoa' Hob']
  · isplitl [Ha']; · iapply (Entails.of_eq (pts_a (F := F) d _ _)); iexact Ha'
    isplitl [Hb']; · iapply (Entails.of_eq (pts_b (F := F) d _ _)); iexact Hb'
    isplitl [Hoa']; · iapply (Entails.of_eq (pts_oa (F := F) d _ _)); iexact Hoa'
    iapply (Entails.of_eq (pts_ob (F := F) d _ _)); iexact Hob'
  isplitl [Hsb]; · iexact Hsb
  isplitl [HsemA HsemB Hrest Hsubs]
  · iapply (SparseCore.Cfg.scopedSems0_S_intro (Val := Elt F) d _)
    isplitl [HsemA HsemB Hrest]
    · rw [ownSems0_S]
      isplitl [HsemA]; · iexact HsemA
      isplitl [HsemB]; · iexact HsemB
      iexact Hrest
    · iexact Hsubs
  iexists (insert (SemLoc.dma cc0_scratch1.sem, (default : HIx 1)) (insert (SemLoc.dma cc0_scratch0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Body

/-! ## The launch theorem's obligation -/

theorem defs₀_scalar (c : Fin τ.nSC) :
    defs₀ (F := F) (.scScalar c) 0 ()
      = SparseCore.onCore hcore0 (fun c => cc0_sc_copy (coordsS c) aW (Memref.isWhole_whole _) bW (Memref.isWhole_whole _)
          oaW (Memref.isWhole_whole _) obW (Memref.isWhole_whole _) cc0_scratch0 cc0_scratch1) ⟨⟩ c := rfl

omit [FloatOps F] in
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The obligation for the one scalar call: its one subcore runs `body`. -/
theorem scalarObl : (K (F := F)).ScalarObl (D (F := F)) 𝒱 (P A B) v₀ 0 := by
  intro d c O W hO _ _
  -- the kernel owes nothing for a protocol of its own
  simp only [show (P A B).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ handed A B d ∗ _) ⊢ wp _ _ _ _ (fun _ => iprop(back A B d ∗ _))
  match c with
  | ⟨0, h⟩ => exact (body A B d h O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A B).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Call

/-! ## @main on the TensorCore -/

section Main

variable (m : (ℓ : Loc nD τ sig) → Buf (Elt F) ℓ) (ρ : Dev nD → PrngReg)

abbrev k' : DevRef τ sig := Proc.devRef .tc (main_arg1 : Ref sig .tc)
abbrev v' : DevRef τ sig := Proc.devRef .tc (main_arg2 : Ref sig .tc)
abbrev a' : DevRef τ sig := Proc.devRef .tc (main_v0 : Ref sig .tc)
abbrev b' : DevRef τ sig := Proc.devRef .tc (main_v1 : Ref sig .tc)
abbrev oa' : DevRef τ sig := Proc.devRef .tc (main_v2_0 : Ref sig .tc)
abbrev ob' : DevRef τ sig := Proc.devRef .tc (main_v2_1 : Ref sig .tc)
abbrev ya' : DevRef τ sig := Proc.devRef .tc (main_v3 : Ref sig .tc)
abbrev yb' : DevRef τ sig := Proc.devRef .tc (main_v4 : Ref sig .tc)

/-- The two recasts before the call and the two after it. -/
abbrev opA : HloOp τ sig (Elt F) := StableHlo.reshape main_arg1 main_v0 rfl Facts₀.shapeCasts_S8x1x16x64_S8192
abbrev opB : HloOp τ sig (Elt F) := StableHlo.reshape main_arg2 main_v1 rfl Facts₀.shapeCasts_S8x1x16x64_S8192
abbrev opC : HloOp τ sig (Elt F) := StableHlo.reshape main_v2_0 main_v3 rfl Facts₀.shapeCasts_S8192_S8x1x16x64
abbrev opD : HloOp τ sig (Elt F) := StableHlo.reshape main_v2_1 main_v4 rfl Facts₀.shapeCasts_S8192_S8x1x16x64

/-- Every unscoped buffer of the device: what the TensorCore holds whole throughout @main. -/
abbrev SU : Finset (DevRef τ sig) := Pipeline.ucRefs τ sig
/-- The four vectors the call takes. -/
abbrev S4 : Finset (DevRef τ sig) := {a', b', oa', ob'}

theorem hA : (opA (F := F)).bufs ⊆ SU := Pipeline.sub_ucRefs _ (StableHlo.reshape_bufs_sub ..)
theorem hB : (opB (F := F)).bufs ⊆ SU := Pipeline.sub_ucRefs _ (StableHlo.reshape_bufs_sub ..)
theorem hC : (opC (F := F)).bufs ⊆ SU := Pipeline.sub_ucRefs _ (StableHlo.reshape_bufs_sub ..)
theorem hD : (opD (F := F)).bufs ⊆ SU := Pipeline.sub_ucRefs _ (StableHlo.reshape_bufs_sub ..)
omit [FloatOps F] in
theorem hS4 : S4 ⊆ SU := by
  intro b hb
  simp only [S4, Finset.mem_insert, Finset.mem_singleton] at hb
  rcases hb with rfl | rfl | rfl | rfl <;>
    exact Finset.mem_filter.mpr ⟨StableHlo.devRef_mem_tcRefs _, by decide⟩

/-- The device's buffers: at launch; after the two recasts; after the call (each result at its source); after the two
    recasts back. -/
def V0 (d : Dev nD) : Valuation τ sig (Elt F) := fun b => m (d, b)
abbrev V2 (d : Dev nD) : Valuation τ sig (Elt F) := (opB (F := F)).result ((opA (F := F)).result (V0 m d))
/-- What the two source vectors hold at the call. -/
abbrev A (d : Dev nD) : Buf (Elt F) (aLoc d) := V2 m d a'
abbrev B (d : Dev nD) : Buf (Elt F) (bLoc d) := V2 m d b'
def V3 (d : Dev nD) : Valuation τ sig (Elt F) := Function.update (Function.update (V2 m d) oa' (A m d)) ob' (B m d)
abbrev V5 (d : Dev nD) : Valuation τ sig (Elt F) := (opD (F := F)).result ((opC (F := F)).result (V3 m d))

omit [FloatOps F] in
theorem held_S4 (d : Dev nD) (W : Valuation τ sig (Elt F)) :
    (held (T d) S4 W : sProp 𝕄) = iprop((aLoc d ↦{fullShare} W a') ∗ (bLoc d ↦{fullShare} W b') ∗ (oaLoc d ↦{fullShare} W oa') ∗ (obLoc d ↦{fullShare} W ob')) := by
  unfold held S4
  rw [SparseCore.bigSep_insert' (by decide), SparseCore.bigSep_insert' (by decide), SparseCore.bigSep_insert' (by decide), bigSep_singleton]

theorem V3_a (d : Dev nD) : V3 m d a' = A m d :=
  (Function.update_of_ne (show a' ≠ ob' by decide) _ _).trans (Function.update_of_ne (show a' ≠ oa' by decide) _ _)
theorem V3_b (d : Dev nD) : V3 m d b' = B m d :=
  (Function.update_of_ne (show b' ≠ ob' by decide) _ _).trans (Function.update_of_ne (show b' ≠ oa' by decide) _ _)
theorem V3_oa (d : Dev nD) : V3 m d oa' = A m d :=
  (Function.update_of_ne (show oa' ≠ ob' by decide) _ _).trans (Function.update_self _ _ _)
theorem V3_ob (d : Dev nD) : V3 m d ob' = B m d := Function.update_self _ _ _
theorem V3_rest (d : Dev nD) (b : DevRef τ sig) (hb : b ∈ SU \ S4) : V2 m d b = V3 m d b := by
  have hn : b ∉ S4 := (Finset.mem_sdiff.mp hb).2
  have h1 : b ≠ ob' := fun e => hn (e ▸ (by decide : ob' ∈ S4))
  have h2 : b ≠ oa' := fun e => hn (e ▸ (by decide : oa' ∈ S4))
  exact ((Function.update_of_ne h1 _ _).trans (Function.update_of_ne h2 _ _)).symm

/-- What the call takes for its one SparseCore, and what it hands back. -/
theorem st0_eq (d : Dev nD) : (bigSep Finset.univ fun c : Fin ((K (F := F)).nCore 0) => (P (A m) (B m)).st 0 d c) = handed (A m) (B m) d := by
  show (bigSep (Finset.univ : Finset (Fin 1)) fun _ => handed (A m) (B m) d) = _
  rw [show (Finset.univ : Finset (Fin 1)) = {0} by decide, bigSep_singleton]
theorem dn0_eq (d : Dev nD) : (bigSep Finset.univ fun c : Fin ((K (F := F)).nCore 0) => (P (A m) (B m)).dn 0 d c) = back (A m) (B m) d := by
  show (bigSep (Finset.univ : Finset (Fin 1)) fun _ => back (A m) (B m) d) = _
  rw [show (Finset.univ : Finset (Fin 1)) = {0} by decide, bigSep_singleton]

/-- What @main leaves the claim: every unscoped buffer whole at the final valuation. -/
abbrev FIN (d : Dev nD) : sProp 𝕄 := held (T d) SU (V5 m d)

/-- @main on device `d`'s TensorCore: the two recasts, the call (the four vectors to the subcore and back), the two recasts
    back, every other buffer held untouched. -/
theorem hmain (κ : GSem nD τ sig → ℕ) (d : Dev nD) :
    iprop((K (F := F)).ctx EH (P (A m) (B m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (T d) SU (V0 m d) from
    Pipeline.unscopedBufs_held (Ix := HIx 1) (Name := ℕ) (U := UU) (Lvl := ℕ) d (V0 m d)]
  simp only [main, wp_bind, wp_pure]
  iintro ⟨#Hctx, Hst, ⟨Hb, Hheld, -, -⟩, -⟩
  -- the two recasts
  iapply (wp_hlo_within 𝒱 (SparseCore.T d) none Set.univ (op := opA) (S := SU) hA (V := V0 m d)) $$ [Hb Hheld]
  · isplitl [Hb] <;> iassumption
  iintro ⟨Hb, Hheld⟩
  rw [wp_ret]; imodintro
  iapply (wp_hlo_within 𝒱 (SparseCore.T d) none Set.univ (op := opB) (S := SU) hB (V := (opA (F := F)).result (V0 m d))) $$ [Hb Hheld]
  · isplitl [Hb] <;> iassumption
  iintro ⟨Hb, Hheld⟩
  rw [wp_ret]; imodintro
  -- the call: the four vectors out of the held set, to the subcore and back
  ihave Hh := (Entails.of_eq (held_sub_split (T d) hS4 (V2 m d))) $$ Hheld
  icases Hh with ⟨H4, Hrest⟩
  ihave H4' := (Entails.of_eq (held_S4 (F := F) d (V2 m d))) $$ H4
  icases H4' with ⟨Ha, Hbb, Hoa, Hob⟩
  iapply ((K (F := F)).wp_run (D (F := F)) 𝒱 (EH := EH) (P := P (A m) (B m)) κ d 0) $$ [Hst Ha Hbb Hoa Hob Hb Hrest]
  isplitr; · iexact Hctx
  isplitl [Hst]; · iexact Hst
  isplitl [Ha Hbb Hoa Hob]
  · rw [st0_eq]; unfold handed
    isplitl [Ha]; · iexact Ha
    isplitl [Hbb]; · iexact Hbb
    isplitl [Hoa]; · iexists _; iexact Hoa
    iexists _; iexact Hob
  iintro ⟨Hst, Hdn⟩
  ihave Hdn' := (Entails.of_eq (dn0_eq m d)) $$ Hdn
  unfold back
  icases Hdn' with ⟨Ha, Hbb, Hoa, Hob⟩
  -- the two recasts back, over the held set at the valuation updated at the two results
  iapply (wp_hlo_within 𝒱 (SparseCore.T d) none Set.univ (op := opC) (S := SU) hC (V := V3 m d)) $$ [Hb Ha Hbb Hoa Hob Hrest]
  · isplitl [Hb]; · iexact Hb
    rw [held_sub_split (T d) hS4 (V3 m d), held_S4, V3_a, V3_b, V3_oa, V3_ob, ← held_congr (T d) (V3_rest m d)]
    isplitl [Ha Hbb Hoa Hob]
    · isplitl [Ha]; · iexact Ha
      isplitl [Hbb]; · iexact Hbb
      isplitl [Hoa]; · iexact Hoa
      iexact Hob
    · iexact Hrest
  iintro ⟨Hb, Hheld⟩
  rw [wp_ret]; imodintro
  iapply (wp_hlo_within 𝒱 (SparseCore.T d) none Set.univ (op := opD) (S := SU) hD (V := (opC (F := F)).result (V3 m d))) $$ [Hb Hheld]
  · isplitl [Hb] <;> iassumption
  iintro ⟨Hb, Hheld⟩
  rw [wp_ret]; imodintro; imodintro
  isplitl [Hst]; · iexact Hst
  iexact Hheld

/-- The final memory holds the final valuation on every unscoped buffer. -/
def fq (d : Dev nD) (s' : Phys nD τ sig (Elt F)) : Prop := ∀ b ∈ SU, s'.mem.mem (d, b) = V5 m d b

theorem hfin (d : Dev nD) (s' : Phys nD τ sig (Elt F)) : iprop(FIN m d ∗ SI s') ⊢ (⌜fq m d s'⌝ : sProp 𝕄) :=
  Cert.Lib.HeldRead.held_agree (T d) SU (V5 m d) s'

/-! ## The program's run -/

def QC : PUnit × MemSt nD τ sig (Elt F) → Prop := fun r => ∀ (c : Dev nD), ∀ b ∈ SU, r.2.mem (c, b) = V5 m c b

/-- Every weakly fair execution of the device's threads terminates, without a fault, with every unscoped buffer of the
    TensorCore at the final valuation. -/
theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (A m) (B m)) launchFacts v₀
    (fun q _ => match q with | 0 => scalarObl (A m) (B m))
    (fun q hq => match q with | 0 => nomatch hq)
    (fun q hq => match q with | 0 => nomatch hq)
    m ρ main (fun _ => iprop(emp)) (FIN m) (u₀ (F := F)) (sep_elim_left.trans (hu₀ (A m) (B m))) (hmain m ρ) (fq m) (hfin m) (QC m) (fun _ h => h)

end Main

/-! ## The final valuation at the buffers the claims name -/

section Named

variable (m : (ℓ : Loc nD τ sig) → Buf (Elt F) ℓ) (ρ : Dev nD → PrngReg)

omit [FloatOps F] in
theorem mem_SU (b : Ref sig .tc) (h : ¬ (Proc.devRef .tc b : DevRef τ sig).isScoped) : (Proc.devRef .tc b : DevRef τ sig) ∈ SU :=
  Finset.mem_filter.mpr ⟨StableHlo.devRef_mem_tcRefs _, h⟩

/-- At the call the first source vector is the new keys recast row-major, the second the new values. -/
theorem A_eq (d : Dev nD) : A m d = fun i => shapeCast S8192 (m (d, k')) Facts₀.shapeCasts_S8x1x16x64_S8192 i := by
  show (opB (F := F)).result ((opA (F := F)).result (V0 m d)) a' = _
  rw [(opB (F := F)).result_of_not_mem _ (b := a') (show a' ∉ ({b'} : Finset (DevRef τ sig)) by decide)]
  exact StableHlo.reshape_result main_arg1 main_v0 rfl _ _ _ (V0 m d)
theorem B_eq (d : Dev nD) : B m d = fun i => shapeCast S8192 (m (d, v')) Facts₀.shapeCasts_S8x1x16x64_S8192 i := by
  show (opB (F := F)).result ((opA (F := F)).result (V0 m d)) b' = _
  refine (StableHlo.reshape_result main_arg2 main_v1 rfl _ _ _ ((opA (F := F)).result (V0 m d))).trans ?_
  rw [(opA (F := F)).result_of_not_mem _ (b := v') (show v' ∉ ({a'} : Finset (DevRef τ sig)) by decide)]
  rfl

/-- The first result array ends at the new keys: recast to a vector, copied, recast back. -/
theorem V5_ya (d : Dev nD) : V5 m d ya' = (m (d, k') : Buf (Elt F) (d, ya')) := by
  show (opD (F := F)).result ((opC (F := F)).result (V3 m d)) ya' = _
  rw [(opD (F := F)).result_of_not_mem _ (b := ya') (show ya' ∉ ({yb'} : Finset (DevRef τ sig)) by decide)]
  refine (StableHlo.reshape_result main_v2_0 main_v3 rfl _ _ _ (V3 m d)).trans ?_
  rw [show V3 m d (Proc.devRef .tc (main_v2_0 : Ref sig .tc)) = A m d from V3_oa m d, A_eq]
  exact shapeCast_shapeCast (m (d, k')) _ _
/-- The second result array ends at the new values. -/
theorem V5_yb (d : Dev nD) : V5 m d yb' = (m (d, v') : Buf (Elt F) (d, yb')) := by
  show (opD (F := F)).result ((opC (F := F)).result (V3 m d)) yb' = _
  refine (StableHlo.reshape_result main_v2_1 main_v4 rfl _ _ _ ((opC (F := F)).result (V3 m d))).trans ?_
  rw [(opC (F := F)).result_of_not_mem _ (b := ob') (show ob' ∉ ({ya'} : Finset (DevRef τ sig)) by decide),
    show V3 m d (Proc.devRef .tc (main_v2_1 : Ref sig .tc)) = B m d from V3_ob m d, B_eq]
  exact shapeCast_shapeCast (m (d, v')) _ _

/-- A buffer that is none of the six the program writes ends as it began. -/
theorem V5_kept (d : Dev nD) (b : DevRef τ sig) (h1 : b ≠ ya') (h2 : b ≠ yb') (h3 : b ≠ oa') (h4 : b ≠ ob') (h5 : b ≠ a') (h6 : b ≠ b') :
    V5 m d b = m (d, b) := by
  show (opD (F := F)).result ((opC (F := F)).result (V3 m d)) b = _
  rw [(opD (F := F)).result_of_not_mem _ (b := b) (Finset.notMem_singleton.mpr h2),
    (opC (F := F)).result_of_not_mem _ (b := b) (Finset.notMem_singleton.mpr h1)]
  show Function.update (Function.update (V2 m d) oa' (A m d)) ob' (B m d) b = _
  rw [Function.update_of_ne h4, Function.update_of_ne h3]
  show (opB (F := F)).result ((opA (F := F)).result (V0 m d)) b = _
  rw [(opB (F := F)).result_of_not_mem _ (b := b) (Finset.notMem_singleton.mpr h6),
    (opA (F := F)).result_of_not_mem _ (b := b) (Finset.notMem_singleton.mpr h5)]
  rfl

/-- The run with every buffer the claims name: the two results at the new keys and the new values, the five arguments
    unchanged. -/
theorem run_named [∀ e, Nonempty (Elt F e)] :
    θ_run (Cert.KernelIdeal.defs (F := F)) (Cert.KernelIdeal.threads (F := F)) ⟨m, fun _ => 0, ρ⟩ (fun r => ∀ c : Dev nD,
      r.2.mem ((c.tc : Thread nD τ).loc main_v3) = (m ((c.tc : Thread nD τ).loc main_arg1) : Buf (Elt F) ((c.tc : Thread nD τ).loc main_v3))
      ∧ r.2.mem ((c.tc : Thread nD τ).loc main_v4) = (m ((c.tc : Thread nD τ).loc main_arg2) : Buf (Elt F) ((c.tc : Thread nD τ).loc main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := F)) _ _).mono (fun r h c =>
    ⟨(h c ya' (mem_SU main_v3 (by decide))).trans (V5_ya m c),
     (h c yb' (mem_SU main_v4 (by decide))).trans (V5_yb m c),
     (h c _ (mem_SU main_arg0 (by decide))).trans (V5_kept m c _ (by decide) (by decide) (by decide) (by decide) (by decide) (by decide)),
     (h c _ (mem_SU main_arg1 (by decide))).trans (V5_kept m c _ (by decide) (by decide) (by decide) (by decide) (by decide) (by decide)),
     (h c _ (mem_SU main_arg2 (by decide))).trans (V5_kept m c _ (by decide) (by decide) (by decide) (by decide) (by decide) (by decide)),
     (h c _ (mem_SU main_arg3 (by decide))).trans (V5_kept m c _ (by decide) (by decide) (by decide) (by decide) (by decide) (by decide)),
     (h c _ (mem_SU main_arg4 (by decide))).trans (V5_kept m c _ (by decide) (by decide) (by decide) (by decide) (by decide) (by decide))⟩)
    (run_main m ρ)

end Named

end Cert.Proof.KernelIdealRun

end
-- ==== Proof.RefWords.lean ====
/-
  The reference's index words at layer 1.

  The scatter's two-word index vector is (l', 0), l' the layer index wrapped into [0, 4) when negative; the dynamic slice's
  five starts are (l', 0, 0, 0, 0), each zero printed as a wrap of the literal 0 against the axis extent. At l = 1 nothing
  wraps: the words are (1, 0) and the starts (1, 0, 0, 0, 0).
-/
import proofs.«209728_g83434034692786_cont_9to1_m_383_10_alg».proof.ReferenceIdeal
import proofs.«209728_g83434034692786_cont_9to1_m_383_10_alg».proof.Proof.Gen.ReferenceIdeal
import Idealize.ShloMosaic.Lib.ValueIdx
import Idealize.ShloMosaic.Lib.Pipeline.Value

noncomputable section

namespace Cert.ReferenceIdeal.RefWords

open Cert.ReferenceIdeal Idealize.ShloMosaic Idealize.ShloMosaic.ValueIdx
open Cert.ReferenceIdeal.Facts₀

/-- The layer index wrapped: l + 4 when l < 0, else l. -/
abbrev wrapped (a0 : IVec S_ 32) : IVec S_ 32 :=
  select (cmpi .slt a0 (constantI S_ 32 0#32)) (addi a0 (constantI S_ 32 4#32)) a0

/-- The scatter's index vector: the wrapped layer index, then the position 0. -/
abbrev words (a0 : IVec S_ 32) : IVec S2 32 :=
  concatenate S2 0 [⟨S1, broadcastInDim S1 ![] bcast_S_S1 (wrapped a0)⟩, ⟨S1, broadcastInDim S1 ![] bcast_S_S1 (constantI S_ 32 0#32)⟩]
    concatenates_S1_S1_S2_d0

/-- The two one-word vectors joined into the two-word index vector, named over its two plain operands. -/
def cat2 (a b : IVec S1 32) : IVec S2 32 := concatenate S2 0 [⟨S1, a⟩, ⟨S1, b⟩] concatenates_S1_S1_S2_d0
theorem cat2_eq (a b : IVec S1 32) : cat2 a b = concatenate S2 0 [⟨S1, a⟩, ⟨S1, b⟩] concatenates_S1_S1_S2_d0 := rfl

/-- At layer 1 the first index word is 1, -/
theorem words_zero : ((words (fun _ => 1#32)) (ix1 (0 : Fin 2))).toInt = 1 := by
  unfold words
  rw [concatenate_pair_apply_left (0 : Fin S2.rank) _ _ concatenates_S1_S1_S2_d0 (ix1 (0 : Fin 2)) rfl (ix1 (0 : Fin 1))
    (fun b => by match b with | ⟨0, _⟩ => rfl)]
  rfl

/-- and the second is 0. -/
theorem words_one : ((words (fun _ => 1#32)) (ix1 (1 : Fin 2))).toInt = 0 := by
  unfold words
  rw [concatenate_pair_apply_right (0 : Fin S2.rank) _ _ concatenates_S1_S1_S2_d0 (ix1 (1 : Fin 2)) rfl rfl (ix1 (0 : Fin 1))
    (fun b hb => by match b with | ⟨0, _⟩ => exact absurd rfl hb) rfl]
  rfl

end Cert.ReferenceIdeal.RefWords

end
-- ==== Proof.RefRunA.lean ====
/-
  The reference's first stretch of sixty host operations, read from any contents.

  The stretch recasts the new keys and the new values to [8, 16, 64], builds the index vector (l', 0) — l' the layer index
  wrapped into [0, 4) when negative —, scatters each recast array into its cache there, and takes the first dynamic slice. From
  ANY contents V of the device's buffers, after the stretch: the first slice is the slice, at the starts (l', 0, 0, 0, 0), of
  the key cache with the recast new keys scattered in; the value cache is the one with the recast new values scattered in;
  and no operation has written an argument. A dynamic slice reads its five starts off five buffers chosen by position:
  each position is read in its own case.
-/
import proofs.«209728_g83434034692786_cont_9to1_m_383_10_alg».proof.Proof.Gen.ReferenceIdeal
import proofs.«209728_g83434034692786_cont_9to1_m_383_10_alg».proof.Proof.RefWords
import Idealize.ShloMosaic.Lib.StableHlo.Run

noncomputable section

namespace Cert.ReferenceIdeal.RefRunA

open Cert.ReferenceIdeal Cert.ReferenceIdeal.Gen Idealize.ShloMosaic Idealize.ShloMosaic.TcCoe Idealize.SL.Sem Idealize.ShloMosaic.StableHlo
open Cert.ReferenceIdeal.RefWords (cat2)

variable {F : FTy → Type} [FloatOps F]

/-- @main's first sixty operations, in order. -/
abbrev ops0 : List (HloOp τ sig (Elt F)) :=
  [ reshape main_arg1 main_v0 rfl shapeCasts_S8x1x16x64_S8x16x64,
    nullary main_c (constantI S_ 32 0#32),
    binary main_arg0 main_c main_v1 (cmpi .slt : (⟨S_, .i32⟩ : BufTy).Contents (Elt F) → (⟨S_, .i32⟩ : BufTy).Contents (Elt F) → (⟨S_, .i1⟩ : BufTy).Contents (Elt F)),
    nullary main_c_0 (constantI S_ 32 4#32),
    binary main_arg0 main_c_0 main_v2 (addi : (⟨S_, .i32⟩ : BufTy).Contents (Elt F) → (⟨S_, .i32⟩ : BufTy).Contents (Elt F) → (⟨S_, .i32⟩ : BufTy).Contents (Elt F)),
    ternary main_v1 main_v2 main_arg0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v3 main_v4 (broadcastInDim S1 ![] bcast_S_S1 : (⟨S_, .i32⟩ : BufTy).Contents (Elt F) → (⟨S1, .i32⟩ : BufTy).Contents (Elt F)),
    nullary main_c_1 (constantI S_ 32 0#32),
    unary main_c_1 main_v5 (broadcastInDim S1 ![] bcast_S_S1 : (⟨S_, .i32⟩ : BufTy).Contents (Elt F) → (⟨S1, .i32⟩ : BufTy).Contents (Elt F)),
    binary main_v4 main_v5 main_v6 (cat2 : (⟨S1, .i32⟩ : BufTy).Contents (Elt F) → (⟨S1, .i32⟩ : BufTy).Contents (Elt F) → (⟨S2, .i32⟩ : BufTy).Contents (Elt F)),
    ternary main_arg3 main_v6 main_v0 main_v7 ((fun x i u => Host.scatter scatter_S4x8x2048x16x64_S2_S8x16x64_012_02_02_0 (fun _ b => b) x i u) : (⟨S4x8x2048x16x64, .f32⟩ : BufTy).Contents (Elt F) → (⟨S2, .i32⟩ : BufTy).Contents (Elt F) → (⟨S8x16x64, .f32⟩ : BufTy).Contents (Elt F) → (⟨S4x8x2048x16x64, .f32⟩ : BufTy).Contents (Elt F)),
    reshape main_arg2 main_v8 rfl shapeCasts_S8x1x16x64_S8x16x64,
    nullary main_c_2 (constantI S_ 32 0#32),
    binary main_arg0 main_c_2 main_v9 (cmpi .slt : (⟨S_, .i32⟩ : BufTy).Contents (Elt F) → (⟨S_, .i32⟩ : BufTy).Contents (Elt F) → (⟨S_, .i1⟩ : BufTy).Contents (Elt F)),
    nullary main_c_3 (constantI S_ 32 4#32),
    binary main_arg0 main_c_3 main_v10 (addi : (⟨S_, .i32⟩ : BufTy).Contents (Elt F) → (⟨S_, .i32⟩ : BufTy).Contents (Elt F) → (⟨S_, .i32⟩ : BufTy).Contents (Elt F)),
    ternary main_v9 main_v10 main_arg0 main_v11 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v11 main_v12 (broadcastInDim S1 ![] bcast_S_S1 : (⟨S_, .i32⟩ : BufTy).Contents (Elt F) → (⟨S1, .i32⟩ : BufTy).Contents (Elt F)),
    nullary main_c_4 (constantI S_ 32 0#32),
    unary main_c_4 main_v13 (broadcastInDim S1 ![] bcast_S_S1 : (⟨S_, .i32⟩ : BufTy).Contents (Elt F) → (⟨S1, .i32⟩ : BufTy).Contents (Elt F)),
    binary main_v12 main_v13 main_v14 (cat2 : (⟨S1, .i32⟩ : BufTy).Contents (Elt F) → (⟨S1, .i32⟩ : BufTy).Contents (Elt F) → (⟨S2, .i32⟩ : BufTy).Contents (Elt F)),
    ternary main_arg4 main_v14 main_v8 main_v15 ((fun x i u => Host.scatter scatter_S4x8x2048x16x64_S2_S8x16x64_012_02_02_0 (fun _ b => b) x i u) : (⟨S4x8x2048x16x64, .f32⟩ : BufTy).Contents (Elt F) → (⟨S2, .i32⟩ : BufTy).Contents (Elt F) → (⟨S8x16x64, .f32⟩ : BufTy).Contents (Elt F) → (⟨S4x8x2048x16x64, .f32⟩ : BufTy).Contents (Elt F)),
    nullary main_c_5 (constantI S_ 32 0#32),
    binary main_arg0 main_c_5 main_v16 (cmpi .slt : (⟨S_, .i32⟩ : BufTy).Contents (Elt F) → (⟨S_, .i32⟩ : BufTy).Contents (Elt F) → (⟨S_, .i1⟩ : BufTy).Contents (Elt F)),
    nullary main_c_6 (constantI S_ 32 4#32),
    binary main_arg0 main_c_6 main_v17 (addi : (⟨S_, .i32⟩ : BufTy).Contents (Elt F) → (⟨S_, .i32⟩ : BufTy).Contents (Elt F) → (⟨S_, .i32⟩ : BufTy).Contents (Elt F)),
    ternary main_v16 main_v17 main_arg0 main_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_7 (constantI S_ 32 0#32),
    nullary main_c_8 (constantI S_ 32 0#32),
    binary main_c_7 main_c_8 main_v19 (cmpi .slt : (⟨S_, .i32⟩ : BufTy).Contents (Elt F) → (⟨S_, .i32⟩ : BufTy).Contents (Elt F) → (⟨S_, .i1⟩ : BufTy).Contents (Elt F)),
    nullary main_c_9 (constantI S_ 32 0#32),
    nullary main_c_10 (constantI S_ 32 8#32),
    binary main_c_9 main_c_10 main_v20 (addi : (⟨S_, .i32⟩ : BufTy).Contents (Elt F) → (⟨S_, .i32⟩ : BufTy).Contents (Elt F) → (⟨S_, .i32⟩ : BufTy).Contents (Elt F)),
    nullary main_c_11 (constantI S_ 32 0#32),
    ternary main_v19 main_v20 main_c_11 main_v21 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_12 (constantI S_ 32 0#32),
    nullary main_c_13 (constantI S_ 32 0#32),
    binary main_c_12 main_c_13 main_v22 (cmpi .slt : (⟨S_, .i32⟩ : BufTy).Contents (Elt F) → (⟨S_, .i32⟩ : BufTy).Contents (Elt F) → (⟨S_, .i1⟩ : BufTy).Contents (Elt F)),
    nullary main_c_14 (constantI S_ 32 0#32),
    nullary main_c_15 (constantI S_ 32 2048#32),
    binary main_c_14 main_c_15 main_v23 (addi : (⟨S_, .i32⟩ : BufTy).Contents (Elt F) → (⟨S_, .i32⟩ : BufTy).Contents (Elt F) → (⟨S_, .i32⟩ : BufTy).Contents (Elt F)),
    nullary main_c_16 (constantI S_ 32 0#32),
    ternary main_v22 main_v23 main_c_16 main_v24 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_17 (constantI S_ 32 0#32),
    nullary main_c_18 (constantI S_ 32 0#32),
    binary main_c_17 main_c_18 main_v25 (cmpi .slt : (⟨S_, .i32⟩ : BufTy).Contents (Elt F) → (⟨S_, .i32⟩ : BufTy).Contents (Elt F) → (⟨S_, .i1⟩ : BufTy).Contents (Elt F)),
    nullary main_c_19 (constantI S_ 32 0#32),
    nullary main_c_20 (constantI S_ 32 16#32),
    binary main_c_19 main_c_20 main_v26 (addi : (⟨S_, .i32⟩ : BufTy).Contents (Elt F) → (⟨S_, .i32⟩ : BufTy).Contents (Elt F) → (⟨S_, .i32⟩ : BufTy).Contents (Elt F)),
    nullary main_c_21 (constantI S_ 32 0#32),
    ternary main_v25 main_v26 main_c_21 main_v27 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_22 (constantI S_ 32 0#32),
    nullary main_c_23 (constantI S_ 32 0#32),
    binary main_c_22 main_c_23 main_v28 (cmpi .slt : (⟨S_, .i32⟩ : BufTy).Contents (Elt F) → (⟨S_, .i32⟩ : BufTy).Contents (Elt F) → (⟨S_, .i1⟩ : BufTy).Contents (Elt F)),
    nullary main_c_24 (constantI S_ 32 0#32),
    nullary main_c_25 (constantI S_ 32 64#32),
    binary main_c_24 main_c_25 main_v29 (addi : (⟨S_, .i32⟩ : BufTy).Contents (Elt F) → (⟨S_, .i32⟩ : BufTy).Contents (Elt F) → (⟨S_, .i32⟩ : BufTy).Contents (Elt F)),
    nullary main_c_26 (constantI S_ 32 0#32),
    ternary main_v28 main_v29 main_c_26 main_v30 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v7 ![main_v18, main_v21, main_v24, main_v27, main_v30] ⟨S_, .i32⟩ main_v31 ((fun x i => Host.dynamicSlice S1x8x1x16x64 x (fun k => (i k (Shape.Idx.first h_S_)).toInt) sliceFits_S4x8x2048x16x64_S1x8x1x16x64) : (⟨S4x8x2048x16x64, .f32⟩ : BufTy).Contents (Elt F) → (Fin 5 → (⟨S_, .i32⟩ : BufTy).Contents (Elt F)) → (⟨S1x8x1x16x64, .f32⟩ : BufTy).Contents (Elt F)) ]

set_option maxRecDepth 8192 in
set_option maxHeartbeats 4000000 in
theorem part0_eq (c : Dev nD) : main_part0 (F := F) c = seq ops0 := rfl

set_option maxRecDepth 8192 in
theorem ops0_sub : (ops0 : List (HloOp τ sig (Elt F))).Forall fun op => op.bufs ⊆ tcRefs τ sig :=
  ⟨reshape_bufs_sub .., nullary_bufs_sub .., binary_bufs_sub .., nullary_bufs_sub .., binary_bufs_sub .., ternary_bufs_sub .., unary_bufs_sub .., nullary_bufs_sub .., unary_bufs_sub .., binary_bufs_sub .., ternary_bufs_sub .., reshape_bufs_sub .., nullary_bufs_sub .., binary_bufs_sub .., nullary_bufs_sub .., binary_bufs_sub .., ternary_bufs_sub .., unary_bufs_sub .., nullary_bufs_sub .., unary_bufs_sub .., binary_bufs_sub .., ternary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub ..⟩

set_option maxRecDepth 8192 in
set_option maxHeartbeats 4000000 in
/-- The first slice: of the key cache with the recast new keys scattered in. -/
theorem ops0_v31 (V : Valuation τ sig (Elt F)) : after (ops0 (F := F)) V (Proc.devRef .tc main_v31)
    = Host.dynamicSlice S1x8x1x16x64 (Host.scatter scatter_S4x8x2048x16x64_S2_S8x16x64_012_02_02_0 (fun _ b => b) (V (Proc.devRef .tc main_arg3)) (cat2 (broadcastInDim S1 ![] bcast_S_S1 (select (cmpi .slt (V (Proc.devRef .tc main_arg0)) (constantI S_ 32 0#32)) (addi (V (Proc.devRef .tc main_arg0)) (constantI S_ 32 4#32)) (V (Proc.devRef .tc main_arg0)))) (broadcastInDim S1 ![] bcast_S_S1 (constantI S_ 32 0#32))) (shapeCast _ (V (Proc.devRef .tc main_arg1)) shapeCasts_S8x1x16x64_S8x16x64)) (fun k => (((![select (cmpi .slt (V (Proc.devRef .tc main_arg0)) (constantI S_ 32 0#32)) (addi (V (Proc.devRef .tc main_arg0)) (constantI S_ 32 4#32)) (V (Proc.devRef .tc main_arg0)), select (cmpi .slt (constantI S_ 32 0#32) (constantI S_ 32 0#32)) (addi (constantI S_ 32 0#32) (constantI S_ 32 8#32)) (constantI S_ 32 0#32), select (cmpi .slt (constantI S_ 32 0#32) (constantI S_ 32 0#32)) (addi (constantI S_ 32 0#32) (constantI S_ 32 2048#32)) (constantI S_ 32 0#32), select (cmpi .slt (constantI S_ 32 0#32) (constantI S_ 32 0#32)) (addi (constantI S_ 32 0#32) (constantI S_ 32 16#32)) (constantI S_ 32 0#32), select (cmpi .slt (constantI S_ 32 0#32) (constantI S_ 32 0#32)) (addi (constantI S_ 32 0#32) (constantI S_ 32 64#32)) (constantI S_ 32 0#32)] : Fin 5 → IVec S_ 32)) k (Shape.Idx.first h_S_)).toInt) sliceFits_S4x8x2048x16x64_S1x8x1x16x64 := by
  after_results_simp
  congr 1
  funext k
  fin_cases k <;> simp only [Matrix.cons_val_zero', Matrix.cons_val_succ', Fin.zero_eta, Fin.mk_one, Matrix.cons_val_zero, Matrix.cons_val_one, Matrix.head_cons] <;> (try after_results_simp) <;> rfl

set_option maxRecDepth 8192 in
set_option maxHeartbeats 4000000 in
/-- The value cache with the recast new values scattered in. -/
theorem ops0_v15 (V : Valuation τ sig (Elt F)) : after (ops0 (F := F)) V (Proc.devRef .tc main_v15)
    = Host.scatter scatter_S4x8x2048x16x64_S2_S8x16x64_012_02_02_0 (fun _ b => b) (V (Proc.devRef .tc main_arg4)) (cat2 (broadcastInDim S1 ![] bcast_S_S1 (select (cmpi .slt (V (Proc.devRef .tc main_arg0)) (constantI S_ 32 0#32)) (addi (V (Proc.devRef .tc main_arg0)) (constantI S_ 32 4#32)) (V (Proc.devRef .tc main_arg0)))) (broadcastInDim S1 ![] bcast_S_S1 (constantI S_ 32 0#32))) (shapeCast _ (V (Proc.devRef .tc main_arg2)) shapeCasts_S8x1x16x64_S8x16x64) := by
  after_results_simp
  rfl

theorem ops0_arg0 (V : Valuation τ sig (Elt F)) : after (ops0 (F := F)) V (Proc.devRef .tc main_arg0) = V (Proc.devRef .tc main_arg0) := by
  after_results_simp
theorem ops0_arg1 (V : Valuation τ sig (Elt F)) : after (ops0 (F := F)) V (Proc.devRef .tc main_arg1) = V (Proc.devRef .tc main_arg1) := by
  after_results_simp
theorem ops0_arg2 (V : Valuation τ sig (Elt F)) : after (ops0 (F := F)) V (Proc.devRef .tc main_arg2) = V (Proc.devRef .tc main_arg2) := by
  after_results_simp
theorem ops0_arg3 (V : Valuation τ sig (Elt F)) : after (ops0 (F := F)) V (Proc.devRef .tc main_arg3) = V (Proc.devRef .tc main_arg3) := by
  after_results_simp
theorem ops0_arg4 (V : Valuation τ sig (Elt F)) : after (ops0 (F := F)) V (Proc.devRef .tc main_arg4) = V (Proc.devRef .tc main_arg4) := by
  after_results_simp

end Cert.ReferenceIdeal.RefRunA

end
-- ==== Proof.RefRunB.lean ====
/-
  The reference's second stretch of forty host operations, read from any contents.

  The stretch recasts the first slice to [8, 1, 16, 64], rebuilds the five starts, slices the scattered value cache and recasts
  that slice. From ANY contents W of the device's buffers, after the stretch: the first result is the first slice recast, the
  second is the recast slice, at the starts (l', 0, 0, 0, 0), of what W holds as the scattered value cache, and no operation
  has written an argument.
-/
import proofs.«209728_g83434034692786_cont_9to1_m_383_10_alg».proof.Proof.Gen.ReferenceIdeal
import proofs.«209728_g83434034692786_cont_9to1_m_383_10_alg».proof.Proof.RefWords
import Idealize.ShloMosaic.Lib.StableHlo.Run

noncomputable section

namespace Cert.ReferenceIdeal.RefRunB

open Cert.ReferenceIdeal Cert.ReferenceIdeal.Gen Idealize.ShloMosaic Idealize.ShloMosaic.TcCoe Idealize.SL.Sem Idealize.ShloMosaic.StableHlo
open Cert.ReferenceIdeal.RefWords (cat2)

variable {F : FTy → Type} [FloatOps F]

/-- @main's last forty operations, in order. -/
abbrev ops1 : List (HloOp τ sig (Elt F)) :=
  [ reshape main_v31 main_v32 rfl shapeCasts_S1x8x1x16x64_S8x1x16x64,
    nullary main_c_27 (constantI S_ 32 0#32),
    binary main_arg0 main_c_27 main_v33 (cmpi .slt : (⟨S_, .i32⟩ : BufTy).Contents (Elt F) → (⟨S_, .i32⟩ : BufTy).Contents (Elt F) → (⟨S_, .i1⟩ : BufTy).Contents (Elt F)),
    nullary main_c_28 (constantI S_ 32 4#32),
    binary main_arg0 main_c_28 main_v34 (addi : (⟨S_, .i32⟩ : BufTy).Contents (Elt F) → (⟨S_, .i32⟩ : BufTy).Contents (Elt F) → (⟨S_, .i32⟩ : BufTy).Contents (Elt F)),
    ternary main_v33 main_v34 main_arg0 main_v35 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_29 (constantI S_ 32 0#32),
    nullary main_c_30 (constantI S_ 32 0#32),
    binary main_c_29 main_c_30 main_v36 (cmpi .slt : (⟨S_, .i32⟩ : BufTy).Contents (Elt F) → (⟨S_, .i32⟩ : BufTy).Contents (Elt F) → (⟨S_, .i1⟩ : BufTy).Contents (Elt F)),
    nullary main_c_31 (constantI S_ 32 0#32),
    nullary main_c_32 (constantI S_ 32 8#32),
    binary main_c_31 main_c_32 main_v37 (addi : (⟨S_, .i32⟩ : BufTy).Contents (Elt F) → (⟨S_, .i32⟩ : BufTy).Contents (Elt F) → (⟨S_, .i32⟩ : BufTy).Contents (Elt F)),
    nullary main_c_33 (constantI S_ 32 0#32),
    ternary main_v36 main_v37 main_c_33 main_v38 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_34 (constantI S_ 32 0#32),
    nullary main_c_35 (constantI S_ 32 0#32),
    binary main_c_34 main_c_35 main_v39 (cmpi .slt : (⟨S_, .i32⟩ : BufTy).Contents (Elt F) → (⟨S_, .i32⟩ : BufTy).Contents (Elt F) → (⟨S_, .i1⟩ : BufTy).Contents (Elt F)),
    nullary main_c_36 (constantI S_ 32 0#32),
    nullary main_c_37 (constantI S_ 32 2048#32),
    binary main_c_36 main_c_37 main_v40 (addi : (⟨S_, .i32⟩ : BufTy).Contents (Elt F) → (⟨S_, .i32⟩ : BufTy).Contents (Elt F) → (⟨S_, .i32⟩ : BufTy).Contents (Elt F)),
    nullary main_c_38 (constantI S_ 32 0#32),
    ternary main_v39 main_v40 main_c_38 main_v41 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_39 (constantI S_ 32 0#32),
    nullary main_c_40 (constantI S_ 32 0#32),
    binary main_c_39 main_c_40 main_v42 (cmpi .slt : (⟨S_, .i32⟩ : BufTy).Contents (Elt F) → (⟨S_, .i32⟩ : BufTy).Contents (Elt F) → (⟨S_, .i1⟩ : BufTy).Contents (Elt F)),
    nullary main_c_41 (constantI S_ 32 0#32),
    nullary main_c_42 (constantI S_ 32 16#32),
    binary main_c_41 main_c_42 main_v43 (addi : (⟨S_, .i32⟩ : BufTy).Contents (Elt F) → (⟨S_, .i32⟩ : BufTy).Contents (Elt F) → (⟨S_, .i32⟩ : BufTy).Contents (Elt F)),
    nullary main_c_43 (constantI S_ 32 0#32),
    ternary main_v42 main_v43 main_c_43 main_v44 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_44 (constantI S_ 32 0#32),
    nullary main_c_45 (constantI S_ 32 0#32),
    binary main_c_44 main_c_45 main_v45 (cmpi .slt : (⟨S_, .i32⟩ : BufTy).Contents (Elt F) → (⟨S_, .i32⟩ : BufTy).Contents (Elt F) → (⟨S_, .i1⟩ : BufTy).Contents (Elt F)),
    nullary main_c_46 (constantI S_ 32 0#32),
    nullary main_c_47 (constantI S_ 32 64#32),
    binary main_c_46 main_c_47 main_v46 (addi : (⟨S_, .i32⟩ : BufTy).Contents (Elt F) → (⟨S_, .i32⟩ : BufTy).Contents (Elt F) → (⟨S_, .i32⟩ : BufTy).Contents (Elt F)),
    nullary main_c_48 (constantI S_ 32 0#32),
    ternary main_v45 main_v46 main_c_48 main_v47 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v15 ![main_v35, main_v38, main_v41, main_v44, main_v47] ⟨S_, .i32⟩ main_v48 ((fun x i => Host.dynamicSlice S1x8x1x16x64 x (fun k => (i k (Shape.Idx.first h_S_)).toInt) sliceFits_S4x8x2048x16x64_S1x8x1x16x64) : (⟨S4x8x2048x16x64, .f32⟩ : BufTy).Contents (Elt F) → (Fin 5 → (⟨S_, .i32⟩ : BufTy).Contents (Elt F)) → (⟨S1x8x1x16x64, .f32⟩ : BufTy).Contents (Elt F)),
    reshape main_v48 main_v49 rfl shapeCasts_S1x8x1x16x64_S8x1x16x64 ]

set_option maxRecDepth 8192 in
set_option maxHeartbeats 4000000 in
theorem part1_eq (c : Dev nD) : main_part1 (F := F) c = seq ops1 := rfl

set_option maxRecDepth 8192 in
theorem ops1_sub : (ops1 : List (HloOp τ sig (Elt F))).Forall fun op => op.bufs ⊆ tcRefs τ sig :=
  ⟨reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub ..⟩

set_option maxRecDepth 8192 in
set_option maxHeartbeats 4000000 in
/-- The first result: the first slice recast. -/
theorem ops1_v32 (W : Valuation τ sig (Elt F)) : after (ops1 (F := F)) W (Proc.devRef .tc main_v32)
    = shapeCast _ (W (Proc.devRef .tc main_v31)) shapeCasts_S1x8x1x16x64_S8x1x16x64 := by
  after_results_simp
  rfl

set_option maxRecDepth 8192 in
set_option maxHeartbeats 4000000 in
/-- The second result: the slice of the scattered value cache, recast. -/
theorem ops1_v49 (W : Valuation τ sig (Elt F)) : after (ops1 (F := F)) W (Proc.devRef .tc main_v49)
    = shapeCast _ (Host.dynamicSlice S1x8x1x16x64 (W (Proc.devRef .tc main_v15)) (fun k => (((![select (cmpi .slt (W (Proc.devRef .tc main_arg0)) (constantI S_ 32 0#32)) (addi (W (Proc.devRef .tc main_arg0)) (constantI S_ 32 4#32)) (W (Proc.devRef .tc main_arg0)), select (cmpi .slt (constantI S_ 32 0#32) (constantI S_ 32 0#32)) (addi (constantI S_ 32 0#32) (constantI S_ 32 8#32)) (constantI S_ 32 0#32), select (cmpi .slt (constantI S_ 32 0#32) (constantI S_ 32 0#32)) (addi (constantI S_ 32 0#32) (constantI S_ 32 2048#32)) (constantI S_ 32 0#32), select (cmpi .slt (constantI S_ 32 0#32) (constantI S_ 32 0#32)) (addi (constantI S_ 32 0#32) (constantI S_ 32 16#32)) (constantI S_ 32 0#32), select (cmpi .slt (constantI S_ 32 0#32) (constantI S_ 32 0#32)) (addi (constantI S_ 32 0#32) (constantI S_ 32 64#32)) (constantI S_ 32 0#32)] : Fin 5 → IVec S_ 32)) k (Shape.Idx.first h_S_)).toInt) sliceFits_S4x8x2048x16x64_S1x8x1x16x64) shapeCasts_S1x8x1x16x64_S8x1x16x64 := by
  after_results_simp
  refine congrArg (fun y => shapeCast S8x1x16x64 y shapeCasts_S1x8x1x16x64_S8x1x16x64) ?_
  congr 1
  funext k
  fin_cases k <;> simp only [Matrix.cons_val_zero', Matrix.cons_val_succ', Fin.zero_eta, Fin.mk_one, Matrix.cons_val_zero, Matrix.cons_val_one, Matrix.head_cons] <;> (try after_results_simp) <;> rfl

theorem ops1_arg0 (W : Valuation τ sig (Elt F)) : after (ops1 (F := F)) W (Proc.devRef .tc main_arg0) = W (Proc.devRef .tc main_arg0) := by
  after_results_simp
theorem ops1_arg1 (W : Valuation τ sig (Elt F)) : after (ops1 (F := F)) W (Proc.devRef .tc main_arg1) = W (Proc.devRef .tc main_arg1) := by
  after_results_simp
theorem ops1_arg2 (W : Valuation τ sig (Elt F)) : after (ops1 (F := F)) W (Proc.devRef .tc main_arg2) = W (Proc.devRef .tc main_arg2) := by
  after_results_simp
theorem ops1_arg3 (W : Valuation τ sig (Elt F)) : after (ops1 (F := F)) W (Proc.devRef .tc main_arg3) = W (Proc.devRef .tc main_arg3) := by
  after_results_simp
theorem ops1_arg4 (W : Valuation τ sig (Elt F)) : after (ops1 (F := F)) W (Proc.devRef .tc main_arg4) = W (Proc.devRef .tc main_arg4) := by
  after_results_simp

end Cert.ReferenceIdeal.RefRunB

end
-- ==== Proof.RefRun.lean ====
/-
  The reference's run.

  The reference's @main is a straight line of one hundred host operations, printed in two stretches of sixty and of forty. Run
  from any memory with zero counters it terminates without a fault, and each buffer then holds the fold of the operations'
  results over the launch contents; the fold over the whole line is the fold over the second stretch begun from the fold
  over the first. Each result is therefore the second stretch's reading of the first stretch's reading of the launch
  contents: the recast slice, at the starts (l', 0, 0, 0, 0), of a cache with the recast new rows scattered in at (l', 0);
  and the arguments are as they were.
-/
import proofs.«209728_g83434034692786_cont_9to1_m_383_10_alg».proof.Proof.Gen.ReferenceIdeal
import proofs.«209728_g83434034692786_cont_9to1_m_383_10_alg».proof.Proof.RefWords
import proofs.«209728_g83434034692786_cont_9to1_m_383_10_alg».proof.Proof.RefRunA
import proofs.«209728_g83434034692786_cont_9to1_m_383_10_alg».proof.Proof.RefRunB
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefWords (cat2)

variable {F : FTy → Type} [FloatOps F]

open Cert.ReferenceIdeal.RefRunA Cert.ReferenceIdeal.RefRunB

/-- @main is the two stretches run one behind the other. -/
theorem main_eq (c : Dev nD) : main (F := F) c = seq (ops0 ++ ops1) := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- The contents after two lines run one behind the other: the second line's fold begun from the first's. -/
theorem after_append (l₁ l₂ : List (HloOp τ sig (Elt F))) (V : Valuation τ sig (Elt F)) : after (l₁ ++ l₂) V = after l₂ (after l₁ V) := by
  induction l₁ generalizing V with
  | nil => rfl
  | cons op l ih => exact ih (op.result V)

/-- A property of every operation of two lines holds of every operation of their concatenation. -/
theorem forall_append {p : HloOp τ sig (Elt F) → Prop} {l₁ l₂ : List (HloOp τ sig (Elt F))} (h₁ : l₁.Forall p) (h₂ : l₂.Forall p) : (l₁ ++ l₂).Forall p := by
  rw [List.forall_iff_forall_mem] at h₁ h₂ ⊢
  intro x hx
  rcases List.mem_append.mp hx with hx | hx
  · exact h₁ x hx
  · exact h₂ x hx

set_option maxRecDepth 8192 in
set_option maxHeartbeats 4000000 in
/-- On every device, for any float values, from any memory with zero counters: every weakly fair execution of @main
    terminates with each result at its term of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = shapeCast _ (Host.dynamicSlice S1x8x1x16x64 (Host.scatter scatter_S4x8x2048x16x64_S2_S8x16x64_012_02_02_0 (fun _ b => b) (m ((c.tc : Thread nD τ).loc main_arg3)) (cat2 (broadcastInDim S1 ![] bcast_S_S1 (select (cmpi .slt (m ((c.tc : Thread nD τ).loc main_arg0)) (constantI S_ 32 0#32)) (addi (m ((c.tc : Thread nD τ).loc main_arg0)) (constantI S_ 32 4#32)) (m ((c.tc : Thread nD τ).loc main_arg0)))) (broadcastInDim S1 ![] bcast_S_S1 (constantI S_ 32 0#32))) (shapeCast _ (m ((c.tc : Thread nD τ).loc main_arg1)) shapeCasts_S8x1x16x64_S8x16x64)) (fun k => (((![select (cmpi .slt (m ((c.tc : Thread nD τ).loc main_arg0)) (constantI S_ 32 0#32)) (addi (m ((c.tc : Thread nD τ).loc main_arg0)) (constantI S_ 32 4#32)) (m ((c.tc : Thread nD τ).loc main_arg0)), select (cmpi .slt (constantI S_ 32 0#32) (constantI S_ 32 0#32)) (addi (constantI S_ 32 0#32) (constantI S_ 32 8#32)) (constantI S_ 32 0#32), select (cmpi .slt (constantI S_ 32 0#32) (constantI S_ 32 0#32)) (addi (constantI S_ 32 0#32) (constantI S_ 32 2048#32)) (constantI S_ 32 0#32), select (cmpi .slt (constantI S_ 32 0#32) (constantI S_ 32 0#32)) (addi (constantI S_ 32 0#32) (constantI S_ 32 16#32)) (constantI S_ 32 0#32), select (cmpi .slt (constantI S_ 32 0#32) (constantI S_ 32 0#32)) (addi (constantI S_ 32 0#32) (constantI S_ 32 64#32)) (constantI S_ 32 0#32)] : Fin 5 → IVec S_ 32)) k (Shape.Idx.first h_S_)).toInt) sliceFits_S4x8x2048x16x64_S1x8x1x16x64) shapeCasts_S1x8x1x16x64_S8x1x16x64
      ∧ r.2.mem ((c.tc : Thread nD τ).loc main_v49) = shapeCast _ (Host.dynamicSlice S1x8x1x16x64 (Host.scatter scatter_S4x8x2048x16x64_S2_S8x16x64_012_02_02_0 (fun _ b => b) (m ((c.tc : Thread nD τ).loc main_arg4)) (cat2 (broadcastInDim S1 ![] bcast_S_S1 (select (cmpi .slt (m ((c.tc : Thread nD τ).loc main_arg0)) (constantI S_ 32 0#32)) (addi (m ((c.tc : Thread nD τ).loc main_arg0)) (constantI S_ 32 4#32)) (m ((c.tc : Thread nD τ).loc main_arg0)))) (broadcastInDim S1 ![] bcast_S_S1 (constantI S_ 32 0#32))) (shapeCast _ (m ((c.tc : Thread nD τ).loc main_arg2)) shapeCasts_S8x1x16x64_S8x16x64)) (fun k => (((![select (cmpi .slt (m ((c.tc : Thread nD τ).loc main_arg0)) (constantI S_ 32 0#32)) (addi (m ((c.tc : Thread nD τ).loc main_arg0)) (constantI S_ 32 4#32)) (m ((c.tc : Thread nD τ).loc main_arg0)), select (cmpi .slt (constantI S_ 32 0#32) (constantI S_ 32 0#32)) (addi (constantI S_ 32 0#32) (constantI S_ 32 8#32)) (constantI S_ 32 0#32), select (cmpi .slt (constantI S_ 32 0#32) (constantI S_ 32 0#32)) (addi (constantI S_ 32 0#32) (constantI S_ 32 2048#32)) (constantI S_ 32 0#32), select (cmpi .slt (constantI S_ 32 0#32) (constantI S_ 32 0#32)) (addi (constantI S_ 32 0#32) (constantI S_ 32 16#32)) (constantI S_ 32 0#32), select (cmpi .slt (constantI S_ 32 0#32) (constantI S_ 32 0#32)) (addi (constantI S_ 32 0#32) (constantI S_ 32 64#32)) (constantI S_ 32 0#32)] : Fin 5 → IVec S_ 32)) k (Shape.Idx.first h_S_)).toInt) sliceFits_S4x8x2048x16x64_S1x8x1x16x64) shapeCasts_S1x8x1x16x64_S8x1x16x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v32).trans (by (rw [after_append, ops1_v32, ops0_v31]; try rfl)),
     (h c main_v49).trans (by (rw [after_append, ops1_v49, ops0_v15, ops0_arg0]; try rfl)),
     (h c main_arg0).trans (by (rw [after_append, ops1_arg0, ops0_arg0]; try rfl)),
     (h c main_arg1).trans (by (rw [after_append, ops1_arg1, ops0_arg1]; try rfl)),
     (h c main_arg2).trans (by (rw [after_append, ops1_arg2, ops0_arg2]; try rfl)),
     (h c main_arg3).trans (by (rw [after_append, ops1_arg3, ops0_arg3]; try rfl)),
     (h c main_arg4).trans (by (rw [after_append, ops1_arg4, ops0_arg4]; try rfl))⟩)
    (run_seq scopedRefs_eq scopedSems_eq defs main (fun _ => ops0 ++ ops1) main_eq (fun _ => forall_append ops0_sub ops1_sub) m ρ)

end Cert.ReferenceIdeal.RefRun

end
-- ==== Proof.LibScatterOnce.lean ====
/-
  A host scatter read at an entry that exactly one update lands on.

  The scatter is the left fold, over the update's indices in row-major order, of the step that replaces the entry an update
  lands on by the body applied to that entry and the update. For a fixed entry `i₀`: a step whose update lands elsewhere, or
  nowhere, leaves the value at `i₀` as it was, and the one step whose update lands on `i₀` applies the body there once. Each
  update index occurs once in the order, so the fold leaves at `i₀` the body applied to the operand's entry and that one
  update: for the body that returns the update, the update itself. No property of the body is used.
-/
import Idealize.ShloMosaic.PureOps

noncomputable section

namespace Cert.Lib.ScatterOnce

open Idealize.ShloMosaic

variable {α : Type}

/-- A left fold whose steps along `l` all leave entry `i₀` alone ends, at `i₀`, where it began. -/
theorem foldl_keep {ι I : Type} (step : (I → α) → ι → (I → α)) (i₀ : I) (miss : ι → Prop)
    (hmiss : ∀ r n, miss n → step r n i₀ = r i₀) :
    ∀ (l : List ι) (x : I → α), (∀ n ∈ l, miss n) → l.foldl step x i₀ = x i₀
  | [], _, _ => rfl
  | a :: l, x, h => by
    rw [List.foldl_cons, foldl_keep step i₀ miss hmiss l _ (fun n hn => h n (List.mem_cons_of_mem _ hn)),
      hmiss _ _ (h a List.mem_cons_self)]

/-- A left fold along a list without repeats, in which only the step at `n₀` touches entry `i₀`, and changes it by `v`:
    at `i₀` the fold ends at `v` of where it began. -/
theorem foldl_once {ι I : Type} [DecidableEq ι] (step : (I → α) → ι → (I → α)) (i₀ : I) (n₀ : ι) (v : α → α)
    (hmiss : ∀ r n, n ≠ n₀ → step r n i₀ = r i₀) (hhit : ∀ r, step r n₀ i₀ = v (r i₀)) :
    ∀ (l : List ι) (x : I → α), l.Nodup → n₀ ∈ l → l.foldl step x i₀ = v (x i₀)
  | [], _, _, h => absurd h List.not_mem_nil
  | a :: l, x, hnd, hmem => by
    rw [List.foldl_cons]
    by_cases ha : a = n₀
    · subst ha
      rw [foldl_keep step i₀ (fun n => n ≠ a) hmiss l _ (fun n hn e => (List.nodup_cons.mp hnd).1 (e ▸ hn)), hhit]
    · rw [foldl_once step i₀ n₀ v hmiss hhit l _ (List.nodup_cons.mp hnd).2 ((List.mem_cons.mp hmem).resolve_left (Ne.symm ha)),
        hmiss _ _ ha]

/-- The scatter read at `i₀`, when update `j₀` lands on `i₀` and no other update does: the body applied to the operand's
    entry and that update. -/
theorem scatter_apply_of_unique {s si u : Shape} {w : Nat} (d : ScatterDims s si u) (f : α → α → α) (x : s.Idx → α)
    (idx : IVec si w) (upd : u.Idx → α) (i₀ : s.Idx) (j₀ : u.Idx) (hhit : d.resultIdx? j₀ idx = some i₀)
    (huniq : ∀ j, d.resultIdx? j idx = some i₀ → j = j₀) :
    Host.scatter d f x idx upd i₀ = f (x i₀) (upd j₀) := by
  unfold Host.scatter
  refine foldl_once _ i₀ (u.rowMajor j₀) (fun a => f a (upd j₀)) ?_ ?_ _ x (List.nodup_finRange _) (List.mem_finRange _)
  · intro r n hn
    cases hg : d.resultIdx? (u.rowMajor.symm n) idx with
    | none => rfl
    | some i =>
      dsimp only
      refine if_neg fun e => hn ?_
      have h2 := huniq _ (hg.trans (congrArg some e.symm))
      rw [← h2, Equiv.apply_symm_apply]
  · intro r
    rw [Equiv.symm_apply_apply, hhit]
    dsimp only
    rw [if_pos rfl]

/-- The same for the body that returns the update (`x.at[…].set(v)`): the entry holds the update. -/
theorem scatter_set_apply_of_unique {s si u : Shape} {w : Nat} (d : ScatterDims s si u) (x : s.Idx → α)
    (idx : IVec si w) (upd : u.Idx → α) (i₀ : s.Idx) (j₀ : u.Idx) (hhit : d.resultIdx? j₀ idx = some i₀)
    (huniq : ∀ j, d.resultIdx? j idx = some i₀ → j = j₀) :
    Host.scatter d (fun _ b => b) x idx upd i₀ = upd j₀ :=
  scatter_apply_of_unique d (fun _ b => b) x idx upd i₀ j₀ hhit huniq

end Cert.Lib.ScatterOnce

end
-- ==== Proof.RefEntry.lean ====
/-
  The reference's cache update read at an entry.

  The reference writes the new token's rows into the cache at layer `l`, position 0, and reads layer `l`, position 0 back:
  a scatter of the [8, 16, 64] update into the [4, 8, 2048, 16, 64] cache at the start (l, 0) on the axes (0, 2), then a
  dynamic slice of sizes [1, 8, 1, 16, 64] at the starts (l, 0, 0, 0, 0), between two recasts that insert and drop unit axes.
  At l = 1: update (b, h, d) lands at (1, b, 0, h, d), inside the cache, and a different update lands elsewhere; the slice's
  starts are already inside [0, size − slice size], so entry (0, b, 0, h, d) of the slice is the scattered cache at
  (1, b, 0, h, d). The result at (b, 0, h, d) is therefore the new token's entry (b, 0, h, d), whatever the cache held.
-/
import proofs.«209728_g83434034692786_cont_9to1_m_383_10_alg».proof.ReferenceIdeal
import proofs.«209728_g83434034692786_cont_9to1_m_383_10_alg».proof.Proof.Gen.ReferenceIdeal
import proofs.«209728_g83434034692786_cont_9to1_m_383_10_alg».proof.Proof.LibScatterOnce
import Idealize.ShloMosaic.Lib.ValueIdx
import Idealize.ShloMosaic.Lib.Pipeline.Value

noncomputable section

namespace Cert.ReferenceIdeal.RefEntry

open Cert.ReferenceIdeal Idealize.ShloMosaic Idealize.ShloMosaic.ValueIdx
open Cert.ReferenceIdeal.Facts₀

variable {α : Type}

/-- The scatter's dimension numbers, as the program states them: all three update axes window axes; cache axes 0 (layer) and 2
    (position) inserted, and indexed by the two index words. -/
abbrev dS : ScatterDims S4x8x2048x16x64 S2 S8x16x64 := Cert.ReferenceIdeal.scatter_S4x8x2048x16x64_S2_S8x16x64_012_02_02_0

section Target

variable (j : S8x16x64.Idx) (idx : IVec S2 32)

/-- The window starts at the first index word on the layer axis and at the second on the position axis, -/
theorem start0 : dS.start j idx 0 = (idx (ix1 (0 : Fin 2))).toInt := by
  unfold ScatterDims.start
  rw [dif_pos (show (0 : Fin 5) ∈ dS.scatterDimsToOperandDims from (by decide : (0 : Fin 5) ∈ ([0, 2] : List (Fin 5))))]
  congr 2
  funext b; refine Fin.ext ?_
  match b with
  | ⟨0, _⟩ => rfl

theorem start2 : dS.start j idx 2 = (idx (ix1 (1 : Fin 2))).toInt := by
  unfold ScatterDims.start
  rw [dif_pos (show (2 : Fin 5) ∈ dS.scatterDimsToOperandDims from (by decide : (2 : Fin 5) ∈ ([0, 2] : List (Fin 5))))]
  congr 2
  funext b; refine Fin.ext ?_
  match b with
  | ⟨0, _⟩ => rfl

/-- and at 0 on the batch, head and feature axes. -/
theorem start1 : dS.start j idx 1 = 0 := by
  unfold ScatterDims.start
  rw [dif_neg (show (1 : Fin 5) ∉ dS.scatterDimsToOperandDims from (by decide : (1 : Fin 5) ∉ ([0, 2] : List (Fin 5))))]
theorem start3 : dS.start j idx 3 = 0 := by
  unfold ScatterDims.start
  rw [dif_neg (show (3 : Fin 5) ∉ dS.scatterDimsToOperandDims from (by decide : (3 : Fin 5) ∉ ([0, 2] : List (Fin 5))))]
theorem start4 : dS.start j idx 4 = 0 := by
  unfold ScatterDims.start
  rw [dif_neg (show (4 : Fin 5) ∉ dS.scatterDimsToOperandDims from (by decide : (4 : Fin 5) ∉ ([0, 2] : List (Fin 5))))]

/-- The window coordinates of update (b, h, d): none on the layer and position axes, b, h, d on the other three. -/
theorem window0 : dS.window j 0 = 0 := by
  unfold ScatterDims.window
  rw [dif_neg (show (0 : Fin 5) ∉ dS.sKept from (by decide : (0 : Fin 5) ∉ ([1, 3, 4] : List (Fin 5))))]
theorem window2 : dS.window j 2 = 0 := by
  unfold ScatterDims.window
  rw [dif_neg (show (2 : Fin 5) ∉ dS.sKept from (by decide : (2 : Fin 5) ∉ ([1, 3, 4] : List (Fin 5))))]
theorem window1 : dS.window j 1 = (j 0).val := by
  unfold ScatterDims.window
  rw [dif_pos (show (1 : Fin 5) ∈ dS.sKept from (by decide : (1 : Fin 5) ∈ ([1, 3, 4] : List (Fin 5))))]
  rfl
theorem window3 : dS.window j 3 = (j 1).val := by
  unfold ScatterDims.window
  rw [dif_pos (show (3 : Fin 5) ∈ dS.sKept from (by decide : (3 : Fin 5) ∈ ([1, 3, 4] : List (Fin 5))))]
  rfl
theorem window4 : dS.window j 4 = (j 2).val := by
  unfold ScatterDims.window
  rw [dif_pos (show (4 : Fin 5) ∈ dS.sKept from (by decide : (4 : Fin 5) ∈ ([1, 3, 4] : List (Fin 5))))]
  rfl

end Target

section Entry

variable (idx : IVec S2 32) (h0 : (idx (ix1 (0 : Fin 2))).toInt = 1) (h1 : (idx (ix1 (1 : Fin 2))).toInt = 0)
include h0 h1

/-- With the index words (1, 0), update (b, h, d) lands at (1, b, 0, h, d). -/
theorem resultIdx?_ix3 (b : Fin 8) (h : Fin 16) (d : Fin 64) :
    dS.resultIdx? (ix3 b h d) idx = some (ix5 (1 : Fin 4) b (0 : Fin 2048) h d) := by
  have hb := b.isLt
  have hh := h.isLt
  have hd := d.isLt
  unfold ScatterDims.resultIdx?
  split
  · rw [Option.some.injEq]
    funext a; apply Fin.ext
    match a with
    | ⟨0, _⟩ =>
      show (dS.start (ix3 b h d) idx 0 + (dS.window (ix3 b h d) 0 : ℤ)).toNat = 1
      rw [start0, window0, h0]; rfl
    | ⟨1, _⟩ =>
      show (dS.start (ix3 b h d) idx 1 + (dS.window (ix3 b h d) 1 : ℤ)).toNat = b.val
      rw [start1, window1]; show ((0 : ℤ) + (b.val : ℤ)).toNat = b.val; omega
    | ⟨2, _⟩ =>
      show (dS.start (ix3 b h d) idx 2 + (dS.window (ix3 b h d) 2 : ℤ)).toNat = 0
      rw [start2, window2, h1]; rfl
    | ⟨3, _⟩ =>
      show (dS.start (ix3 b h d) idx 3 + (dS.window (ix3 b h d) 3 : ℤ)).toNat = h.val
      rw [start3, window3]; show ((0 : ℤ) + (h.val : ℤ)).toNat = h.val; omega
    | ⟨4, _⟩ =>
      show (dS.start (ix3 b h d) idx 4 + (dS.window (ix3 b h d) 4 : ℤ)).toNat = d.val
      rw [start4, window4]; show ((0 : ℤ) + (d.val : ℤ)).toNat = d.val; omega
  · rename_i hn
    exfalso; apply hn
    intro a
    match a with
    | ⟨0, _⟩ =>
      show 0 ≤ dS.start (ix3 b h d) idx 0 + (dS.window (ix3 b h d) 0 : ℤ)
        ∧ dS.start (ix3 b h d) idx 0 + (dS.window (ix3 b h d) 0 : ℤ) < ((4 : ℕ) : ℤ)
      rw [start0, window0, h0]; omega
    | ⟨1, _⟩ =>
      show 0 ≤ dS.start (ix3 b h d) idx 1 + (dS.window (ix3 b h d) 1 : ℤ)
        ∧ dS.start (ix3 b h d) idx 1 + (dS.window (ix3 b h d) 1 : ℤ) < ((8 : ℕ) : ℤ)
      rw [start1, window1]; show 0 ≤ (0 : ℤ) + (b.val : ℤ) ∧ (0 : ℤ) + (b.val : ℤ) < ((8 : ℕ) : ℤ); omega
    | ⟨2, _⟩ =>
      show 0 ≤ dS.start (ix3 b h d) idx 2 + (dS.window (ix3 b h d) 2 : ℤ)
        ∧ dS.start (ix3 b h d) idx 2 + (dS.window (ix3 b h d) 2 : ℤ) < ((2048 : ℕ) : ℤ)
      rw [start2, window2, h1]; omega
    | ⟨3, _⟩ =>
      show 0 ≤ dS.start (ix3 b h d) idx 3 + (dS.window (ix3 b h d) 3 : ℤ)
        ∧ dS.start (ix3 b h d) idx 3 + (dS.window (ix3 b h d) 3 : ℤ) < ((16 : ℕ) : ℤ)
      rw [start3, window3]; show 0 ≤ (0 : ℤ) + (h.val : ℤ) ∧ (0 : ℤ) + (h.val : ℤ) < ((16 : ℕ) : ℤ); omega
    | ⟨4, _⟩ =>
      show 0 ≤ dS.start (ix3 b h d) idx 4 + (dS.window (ix3 b h d) 4 : ℤ)
        ∧ dS.start (ix3 b h d) idx 4 + (dS.window (ix3 b h d) 4 : ℤ) < ((64 : ℕ) : ℤ)
      rw [start4, window4]; show 0 ≤ (0 : ℤ) + (d.val : ℤ) ∧ (0 : ℤ) + (d.val : ℤ) < ((64 : ℕ) : ℤ); omega

/-- Only update (b, h, d) lands at (1, b, 0, h, d). -/
theorem resultIdx?_unique (j : S8x16x64.Idx) (b : Fin 8) (h : Fin 16) (d : Fin 64)
    (hj : dS.resultIdx? j idx = some (ix5 (1 : Fin 4) b (0 : Fin 2048) h d)) : j = ix3 b h d := by
  obtain ⟨b', h', d', rfl⟩ : ∃ (b' : Fin 8) (h' : Fin 16) (d' : Fin 64), j = ix3 b' h' d' := ⟨j 0, j 1, j 2, eq_ix3 j⟩
  rw [resultIdx?_ix3 idx h0 h1, Option.some.injEq] at hj
  have e1 := congrArg Fin.val (congrFun hj 1)
  have e3 := congrArg Fin.val (congrFun hj 3)
  have e4 := congrArg Fin.val (congrFun hj 4)
  change b'.val = b.val at e1
  change h'.val = h.val at e3
  change d'.val = d.val at e4
  obtain rfl : b' = b := Fin.ext e1
  obtain rfl : h' = h := Fin.ext e3
  obtain rfl : d' = d := Fin.ext e4
  rfl

/-- The scattered cache at (1, b, 0, h, d) holds update (b, h, d). -/
theorem scatter_entry (x : S4x8x2048x16x64.Idx → α) (upd : S8x16x64.Idx → α) (b : Fin 8) (h : Fin 16) (d : Fin 64) :
    Host.scatter dS (fun _ v => v) x idx upd (ix5 (1 : Fin 4) b (0 : Fin 2048) h d) = upd (ix3 b h d) :=
  Cert.Lib.ScatterOnce.scatter_set_apply_of_unique dS x idx upd _ _ (resultIdx?_ix3 idx h0 h1 b h d)
    (fun j hj => resultIdx?_unique idx h0 h1 j b h d hj)

end Entry

/-- The slice of sizes [1, 8, 1, 16, 64] at the starts (1, 0, 0, 0, 0), read at (0, b, 0, h, d): the operand at
    (1, b, 0, h, d) (no start is moved by the clamp). -/
theorem dynamicSlice_entry (y : S4x8x2048x16x64.Idx → α) (st : Fin 5 → Int)
    (hs0 : st 0 = 1) (hs1 : st 1 = 0) (hs2 : st 2 = 0) (hs3 : st 3 = 0) (hs4 : st 4 = 0) (b : Fin 8) (h : Fin 16) (d : Fin 64) :
    Host.dynamicSlice S1x8x1x16x64 y st sliceFits_S4x8x2048x16x64_S1x8x1x16x64 (ix5 (0 : Fin 1) b (0 : Fin 1) h d)
      = y (ix5 (1 : Fin 4) b (0 : Fin 2048) h d) := by
  unfold Host.dynamicSlice
  dsimp only
  refine extractStridedSlice_apply _ y _ _ _ ?_
  intro a
  match a with
  | ⟨0, _⟩ =>
    show (1 : ℕ) = (min (max (st 0) 0) (((4 - 1 : ℕ) : ℕ) : ℤ)).toNat + 0
    rw [hs0]; rfl
  | ⟨1, _⟩ =>
    show b.val = (min (max (st 1) 0) (((8 - 8 : ℕ) : ℕ) : ℤ)).toNat + b.val
    rw [hs1]; show b.val = 0 + b.val; omega
  | ⟨2, _⟩ =>
    show (0 : ℕ) = (min (max (st 2) 0) (((2048 - 1 : ℕ) : ℕ) : ℤ)).toNat + 0
    rw [hs2]; rfl
  | ⟨3, _⟩ =>
    show h.val = (min (max (st 3) 0) (((16 - 16 : ℕ) : ℕ) : ℤ)).toNat + h.val
    rw [hs3]; show h.val = 0 + h.val; omega
  | ⟨4, _⟩ =>
    show d.val = (min (max (st 4) 0) (((64 - 64 : ℕ) : ℕ) : ℤ)).toNat + d.val
    rw [hs4]; show d.val = 0 + d.val; omega

/-- The whole chain — recast the new token's rows to [8, 16, 64], scatter them into the cache at (1, 0), slice layer 1,
    position 0 out, recast to [8, 1, 16, 64] — is the new token's rows. -/
theorem chain_eq (x3 : S4x8x2048x16x64.Idx → α) (idx : IVec S2 32) (x1 : S8x1x16x64.Idx → α) (st : Fin 5 → Int)
    (h0 : (idx (ix1 (0 : Fin 2))).toInt = 1) (h1 : (idx (ix1 (1 : Fin 2))).toInt = 0)
    (hs0 : st 0 = 1) (hs1 : st 1 = 0) (hs2 : st 2 = 0) (hs3 : st 3 = 0) (hs4 : st 4 = 0) :
    shapeCast S8x1x16x64 (Host.dynamicSlice S1x8x1x16x64 (Host.scatter dS (fun _ v => v) x3 idx
        (shapeCast S8x16x64 x1 shapeCasts_S8x1x16x64_S8x16x64)) st sliceFits_S4x8x2048x16x64_S1x8x1x16x64)
      shapeCasts_S1x8x1x16x64_S8x1x16x64 = x1 := by
  funext i
  obtain ⟨b, u, h, d, rfl⟩ : ∃ (b : Fin 8) (u : Fin 1) (h : Fin 16) (d : Fin 64), i = ix4 b u h d := ⟨i 0, i 1, i 2, i 3, eq_ix4 i⟩
  obtain rfl : u = 0 := Subsingleton.elim _ _
  have hb := b.isLt
  have hh := h.isLt
  have hd := d.isLt
  rw [shapeCast_apply _ shapeCasts_S1x8x1x16x64_S8x1x16x64 (ix4 b (0 : Fin 1) h d) (ix5 (0 : Fin 1) b (0 : Fin 1) h d)
      (by rewrite [Shape.rowMajor_val_five, Shape.rowMajor_val_four]
          show ((((0 * 8 + b.val) * 1 + 0) * 16 + h.val) * 64 + d.val) = ((b.val * 1 + 0) * 16 + h.val) * 64 + d.val
          omega),
    dynamicSlice_entry _ st hs0 hs1 hs2 hs3 hs4 b h d, scatter_entry idx h0 h1 x3 _ b h d,
    shapeCast_apply x1 shapeCasts_S8x1x16x64_S8x16x64 (ix3 b h d) (ix4 b (0 : Fin 1) h d)
      (by rewrite [Shape.rowMajor_val_four, Shape.rowMajor_val_three]
          show (((b.val * 1 + 0) * 16 + h.val) * 64 + d.val) = (b.val * 16 + h.val) * 64 + d.val
          omega)]

end Cert.ReferenceIdeal.RefEntry

end
-- ==== Proof.RefValue.lean ====
/-
  The reference's result at layer 1.

  The reference's run names each of its two results by one term of the arguments: recast the new rows to [8, 16, 64], scatter
  them into the cache at the index vector (l', 0), slice [1, 8, 1, 16, 64] out at the starts (l', 0, 0, 0, 0), recast to
  [8, 1, 16, 64]. With the layer index the word 1 the index vector is (1, 0) and the starts are (1, 0, 0, 0, 0), and the
  term is the new rows themselves, whatever the cache holds and for any type of element: entries are moved, never computed
  with.
-/
import proofs.«209728_g83434034692786_cont_9to1_m_383_10_alg».proof.Proof.RefEntry
import proofs.«209728_g83434034692786_cont_9to1_m_383_10_alg».proof.Proof.RefWords

noncomputable section

namespace Cert.ReferenceIdeal.RefValue

open Cert.ReferenceIdeal Idealize.ShloMosaic Idealize.ShloMosaic.ValueIdx Cert.ReferenceIdeal.RefWords
open Cert.ReferenceIdeal.Facts₀

variable {α : Type}

/-- The run's result term, at the layer index 1, is the new rows `x1`. -/
theorem term_eq (a0 : IVec S_ 32) (ha : a0 = fun _ => 1#32) (x1 : S8x1x16x64.Idx → α) (x3 : S4x8x2048x16x64.Idx → α) :
    shapeCast _ (Host.dynamicSlice S1x8x1x16x64 (Host.scatter scatter_S4x8x2048x16x64_S2_S8x16x64_012_02_02_0 (fun _ b => b) x3 (cat2 (broadcastInDim S1 ![] bcast_S_S1 (select (cmpi .slt a0 (constantI S_ 32 0#32)) (addi a0 (constantI S_ 32 4#32)) a0)) (broadcastInDim S1 ![] bcast_S_S1 (constantI S_ 32 0#32))) (shapeCast _ x1 shapeCasts_S8x1x16x64_S8x16x64)) (fun k => (((![select (cmpi .slt a0 (constantI S_ 32 0#32)) (addi a0 (constantI S_ 32 4#32)) a0, select (cmpi .slt (constantI S_ 32 0#32) (constantI S_ 32 0#32)) (addi (constantI S_ 32 0#32) (constantI S_ 32 8#32)) (constantI S_ 32 0#32), select (cmpi .slt (constantI S_ 32 0#32) (constantI S_ 32 0#32)) (addi (constantI S_ 32 0#32) (constantI S_ 32 2048#32)) (constantI S_ 32 0#32), select (cmpi .slt (constantI S_ 32 0#32) (constantI S_ 32 0#32)) (addi (constantI S_ 32 0#32) (constantI S_ 32 16#32)) (constantI S_ 32 0#32), select (cmpi .slt (constantI S_ 32 0#32) (constantI S_ 32 0#32)) (addi (constantI S_ 32 0#32) (constantI S_ 32 64#32)) (constantI S_ 32 0#32)] : Fin 5 → IVec S_ 32)) k (Shape.Idx.first h_S_)).toInt) sliceFits_S4x8x2048x16x64_S1x8x1x16x64) shapeCasts_S1x8x1x16x64_S8x1x16x64
      = x1 := by
  subst ha
  exact RefEntry.chain_eq x3 _ x1 _ words_zero words_one rfl rfl rfl rfl rfl

end Cert.ReferenceIdeal.RefValue

end
-- ==== Proof.PreDecode.lean ====
/-
  What the precondition says of the layer index.

  The precondition is the conjunction of five facts: each of the four float inputs is finite at every entry, and the layer
  index l satisfies 1 ≤ l ≤ 1 as a signed integer. The last conjunct is an `and`-reduction, over no axis, of the one-bit
  word (1 ≤ l) ∧ (l ≤ 1): it is 1 only where both comparisons hold, so l is the word 1. The finiteness conjuncts are not
  needed: the two programs move the new token's entries and compute nothing with them.
-/
import proofs.«209728_g83434034692786_cont_9to1_m_383_10_alg».proof.Pre_input_domain
import proofs.«209728_g83434034692786_cont_9to1_m_383_10_alg».proof.Proof.Gen.Pre_input_domain
import Idealize.ShloMosaic.Lib.ReduceAll
import Idealize.ShloMosaic.Lib.Affine
import Idealize.ShloMosaic.Lib.ValueIdx

noncomputable section

namespace Cert.Pre_input_domain.Decode

open Cert.Pre_input_domain Idealize.ShloMosaic Idealize.ShloMosaic.ValueIdx

variable {F : FTy → Type} [FloatOps F]

instance : Subsingleton S_.Idx := ⟨fun a b => funext fun d => d.elim0⟩

/-- Under the precondition the layer index is the word 1. -/
theorem layer_eq_one (a0 : IVec S_ 32) (a1 a2 : FVec F S8x1x16x64 .f32) (a3 a4 : FVec F S4x8x2048x16x64 .f32)
    (h : fn (F := F) a0 a1 a2 a3 a4 = fun _ => 1#1) : a0 = fun _ => 1#32 := by
  have h' := congrFun h ix0
  unfold fn at h'
  dsimp only at h'
  unfold fn_part1 at h'
  dsimp only at h'
  have h22 := (IntOp.andi_eq_one.mp h').2
  have h21 := Host.reduce_andi_all _ _ _ _ ix0 h22 ix0
  obtain ⟨hge, hle⟩ := IntOp.andi_eq_one.mp h21
  have hge' : (1#32 : BitVec 32).toInt ≤ (a0 ix0).toInt := IntOp.cmpi_sge.mp hge
  have hle' : (a0 ix0).toInt ≤ (1#32 : BitVec 32).toInt := IntOp.cmpi_sle.mp hle
  funext i
  obtain rfl : i = ix0 := Subsingleton.elim _ _
  exact BitVec.eq_of_toInt_eq (le_antisymm hle' hge')

end Cert.Pre_input_domain.Decode

end
-- ==== Proof.lean ====
/-
  The claim: the kernel's frame at both instances, the reference's frame, the idealization (which rewrote nothing), and the
  equality of results at the ideal instance.

  The kernel recasts the new token's keys and values (each [8, 1, 16, 64]) to vectors of 8192 entries, has one scalar subcore
  copy each vector into a result vector by one whole-array transfer on a semaphore of its own, waits for both transfers, and
  recasts the two result vectors back: its two results are the new keys and the new values, entry for entry, at any float
  instance, and it reads neither the layer index nor the caches. The reference writes the new rows into each cache at layer l,
  position 0, and reads layer l, position 0 back. The precondition puts l between 1 and 1, inside the four layers, so the
  row read back is the row just written, whatever the caches held: again the new keys and the new values. Entries are moved
  and never computed with, so the equality holds entry by entry on the extended reals with no use of finiteness.

  Each frame is its program's run with the results' values dropped; the algebraic claim pairs the kernel's run at the ideal
  instance with the reference's, whose two results are rewritten at l = 1 and then by the arguments' agreement.
-/
import proofs.«209728_g83434034692786_cont_9to1_m_383_10_alg».proof.Defs
import proofs.«209728_g83434034692786_cont_9to1_m_383_10_alg».proof.Proof.Gen.Kernel
import proofs.«209728_g83434034692786_cont_9to1_m_383_10_alg».proof.Proof.Gen.KernelIdeal
import proofs.«209728_g83434034692786_cont_9to1_m_383_10_alg».proof.Proof.Gen.ReferenceIdeal
import proofs.«209728_g83434034692786_cont_9to1_m_383_10_alg».proof.Proof.Gen.Pre_input_domain
import proofs.«209728_g83434034692786_cont_9to1_m_383_10_alg».proof.Proof.KernelRun
import proofs.«209728_g83434034692786_cont_9to1_m_383_10_alg».proof.Proof.KernelIdealRun
import proofs.«209728_g83434034692786_cont_9to1_m_383_10_alg».proof.Proof.RefRun
import proofs.«209728_g83434034692786_cont_9to1_m_383_10_alg».proof.Proof.RefValue
import proofs.«209728_g83434034692786_cont_9to1_m_383_10_alg».proof.Proof.PreDecode
import Idealize.ShloMosaic.Adequacy
import Idealize.ShloMosaic.Init

noncomputable section

namespace Cert.Proof

open Idealize.ShloMosaic Idealize.SL.Sem

/-- The word-level kernel runs to the end without a fault and leaves its five arguments as they were. -/
theorem frame_k : Cert.frame_Kernel := fun m g _ =>
  (θ_run (Cert.Kernel.defs (F := Bits)) _ _).mono (fun _ h c => (h c).2.2) (Cert.Proof.KernelRun.run_named (F := Bits) m g)

/-- So does the idealized kernel. -/
theorem frame_ki : Cert.frame_KernelIdeal := fun m g _ =>
  (θ_run (Cert.KernelIdeal.defs (F := Ideal)) _ _).mono (fun _ h c => (h c).2.2) (Cert.Proof.KernelIdealRun.run_named (F := Ideal) m g)

/-- And the reference. -/
theorem frame_ri : Cert.frame_ReferenceIdeal := fun m g _ =>
  (θ_run (Cert.ReferenceIdeal.defs (F := Ideal)) _ _).mono (fun _ h c => (h c).2.2) (Cert.ReferenceIdeal.RefRun.run (F := Ideal) m g)

/-- The ideal pass rewrote no operation. -/
theorem preserves : Cert.preserves_Kernel_KernelIdeal := trivial

/-- At the ideal instance both programs end with the new keys and the new values as their two results. -/
theorem algebraic : Cert.algebraic_KernelIdeal_ReferenceIdeal := by
  intro m g m' g' hpre hagree
  refine ⟨fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    Cert.Proof.KernelIdealRun.run_named (F := Ideal) m g, ?_⟩
  refine (θ_run (Cert.ReferenceIdeal.defs (F := Ideal)) _ _).mono (fun _ h c => ?_) (Cert.ReferenceIdeal.RefRun.run (F := Ideal) m' g')
  obtain ⟨h32, h49, hargs⟩ := h c
  obtain ⟨e0, e1, e2, _, _⟩ := hagree c
  -- the layer index is the word 1: the precondition, read through the arguments' agreement
  have ha0 : m' ((c.tc : Thread Cert.ReferenceIdeal.nD Cert.ReferenceIdeal.τ).loc Cert.ReferenceIdeal.main_arg0) = fun _ => 1#32 := by
    rw [e0]
    exact Cert.Pre_input_domain.Decode.layer_eq_one (F := Ideal) _ _ _ _ _ (hpre c)
  exact ⟨h32.trans ((Cert.ReferenceIdeal.RefValue.term_eq _ ha0 _ _).trans e1),
    h49.trans ((Cert.ReferenceIdeal.RefValue.term_eq _ ha0 _ _).trans e2), hargs⟩

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
